-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x1600000 : Shape := ⟨2, ![2, 1600000]⟩
abbrev S4x512 : Shape := ⟨2, ![4, 512]⟩
abbrev S4 : Shape := ⟨1, ![4]⟩
abbrev S64x4 : Shape := ⟨2, ![64, 4]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S4x512 : S_.BroadcastsInDim S4x512 (![] : Fin 0 → Fin S4x512.rank)
  reducesTo_S4x512_S_d0_1 : S4x512.ReducesTo [0, 1] S_
  bcast_S_S4 : S_.BroadcastsInDim S4 (![] : Fin 0 → Fin S4.rank)
  reducesTo_S4_S_d0 : S4.ReducesTo [0] S_
  bcast_S_S64x4 : S_.BroadcastsInDim S64x4 (![] : Fin 0 → Fin S64x4.rank)
  reducesTo_S64x4_S_d0_1 : S64x4.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x4 1) : IVec S_ 1 :=
  let main_c_5 : IVec S_ 1 := constantI S_ 1 1#1
  let main_v17 : IVec S_ 1 := (fun x v => Host.reduce IntOp.andi x v reducesTo_S64x4_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x512 .f32) (main_arg1 : IVec S2x1600000 32) (main_arg2 : FVec F S4x512 .f32) (main_arg3 : FVec F S4 .f32) (main_arg4 : FVec F S64x4 .f32) (main_arg5 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S4x512 .f32 := Host.absf main_arg2
  let main_cst_0 : FVec F S_ .f32 := constant S_ .f32 0x7F800000#32
  let main_v5 : FVec F S4x512 .f32 := broadcastInDim S4x512 ![] bcast_S_S4x512 main_cst_0
  let main_v6 : IVec S4x512 1 := cmpf .olt main_v4 main_v5
  let main_c_1 : IVec S_ 1 := constantI S_ 1 1#1
  let main_v7 : IVec S_ 1 := (fun x v => Host.reduce IntOp.andi x v reducesTo_S4x512_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S64x4 .f32 := Host.absf main_arg4
  let main_cst_4 : FVec F S_ .f32 := constant S_ .f32 0x7F800000#32
  let main_v15 : FVec F S64x4 .f32 := broadcastInDim S64x4 ![] bcast_S_S64x4 main_cst_4
  let main_v16 : IVec S64x4 1 := cmpf .olt main_v14 main_v15
  fn_part1 (F := F) main_arg5 main_v13 main_v16
-- ==== Kernel.lean ====
abbrev S50000x512 : Shape := ⟨2, ![50000, 512]⟩
abbrev S2x1600000 : Shape := ⟨2, ![2, 1600000]⟩
abbrev S4x512 : Shape := ⟨2, ![4, 512]⟩
abbrev S4 : Shape := ⟨1, ![4]⟩
abbrev S64x4 : Shape := ⟨2, ![64, 4]⟩
abbrev S64 : Shape := ⟨1, ![64]⟩
abbrev S50000x8 : Shape := ⟨2, ![50000, 8]⟩
abbrev S50000x64 : Shape := ⟨2, ![50000, 64]⟩
abbrev S5000x512 : Shape := ⟨2, ![5000, 512]⟩
abbrev S5000x8 : Shape := ⟨2, ![5000, 8]⟩
abbrev S5000x64 : Shape := ⟨2, ![5000, 64]⟩
abbrev S512x4 : Shape := ⟨2, ![512, 4]⟩
abbrev S5000x4 : Shape := ⟨2, ![5000, 4]⟩
abbrev S1x4 : Shape := ⟨2, ![1, 4]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x8 : Shape := ⟨2, ![1600000, 8]⟩
abbrev S1 : Shape := ⟨1, ![1]⟩
abbrev S50000x4 : Shape := ⟨2, ![50000, 4]⟩
abbrev S50000x1 : Shape := ⟨2, ![50000, 1]⟩
abbrev S50000 : Shape := ⟨1, ![50000]⟩
abbrev S50000x4096 : Shape := ⟨2, ![50000, 4096]⟩
abbrev S1000x64 : Shape := ⟨2, ![1000, 64]⟩
abbrev S1000x4 : Shape := ⟨2, ![1000, 4]⟩
abbrev S1000x4096 : Shape := ⟨2, ![1000, 4096]⟩
abbrev S4x64 : Shape := ⟨2, ![4, 64]⟩
abbrev S1x1x64 : Shape := ⟨3, ![1, 1, 64]⟩
abbrev S1000x8x64 : Shape := ⟨3, ![1000, 8, 64]⟩
abbrev S1000x8 : Shape := ⟨2, ![1000, 8]⟩
abbrev S1000x8x1 : Shape := ⟨3, ![1000, 8, 1]⟩
abbrev S1000x1x64 : Shape := ⟨3, ![1000, 1, 64]⟩
abbrev S1000x512 : Shape := ⟨2, ![1000, 512]⟩
abbrev S50000x64x64 : Shape := ⟨3, ![50000, 64, 64]⟩

abbrev nBuf : Space → Nat
  | .hbm => 50
  | .vmem => 16
  | .smem => 0
  | _ => 0

abbrev bufTy : (tb : Table) → Fin (tcTables nBuf tb) → BufTy
  | .hbm, ⟨0, _⟩ => ⟨S50000x512, .f32⟩
  | .hbm, ⟨1, _⟩ => ⟨S2x1600000, .i32⟩
  | .hbm, ⟨2, _⟩ => ⟨S4x512, .f32⟩
  | .hbm, ⟨3, _⟩ => ⟨S4, .f32⟩
  | .hbm, ⟨4, _⟩ => ⟨S64x4, .f32⟩
  | .hbm, ⟨5, _⟩ => ⟨S64, .f32⟩
  | .hbm, ⟨6, _⟩ => ⟨S50000x8, .f32⟩
  | .hbm, ⟨7, _⟩ => ⟨S50000x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x8, .f32⟩
  | .hbm, ⟨21, _⟩ => ⟨S_, .i32⟩
  | .hbm, ⟨22, _⟩ => ⟨S1, .i32⟩
  | .hbm, ⟨23, _⟩ => ⟨S_, .f32⟩
  | .hbm, ⟨24, _⟩ => ⟨S1600000, .f32⟩
  | .hbm, ⟨25, _⟩ => ⟨S1600000x8, .f32⟩
  | .hbm, ⟨26, _⟩ => ⟨S_, .f32⟩
  | .hbm, ⟨27, _⟩ => ⟨S50000x8, .f32⟩
  | .hbm, ⟨28, _⟩ => ⟨S1600000x1, .i32⟩
  | .hbm, ⟨29, _⟩ => ⟨S50000x8, .f32⟩
  | .hbm, ⟨30, _⟩ => ⟨S50000x4, .f32⟩
  | .hbm, ⟨31, _⟩ => ⟨S50000x1, .f32⟩
  | .hbm, ⟨32, _⟩ => ⟨S50000, .f32⟩
  | .hbm, ⟨33, _⟩ => ⟨S50000x1, .f32⟩
  | .hbm, ⟨34, _⟩ => ⟨S_, .f32⟩
  | .hbm, ⟨35, _⟩ => ⟨S50000x1, .f32⟩
  | .hbm, ⟨36, _⟩ => ⟨S50000x1, .i1⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x4, .f32⟩
  | .hbm, ⟨42, _⟩ => ⟨S50000x4, .f32⟩
  | .hbm, ⟨43, _⟩ => ⟨S_, .f32⟩
  | .hbm, ⟨44, _⟩ => ⟨S_, .f32⟩
  | .hbm, ⟨45, _⟩ => ⟨S50000x4, .i1⟩
  | .hbm, ⟨46, _⟩ => ⟨S50000x4, .f32⟩
  | .hbm, ⟨47, _⟩ => ⟨S50000x4, .f32⟩
  | .hbm, ⟨48, _⟩ => ⟨S50000x4096, .f32⟩
  | .hbm, ⟨49, _⟩ => ⟨S50000x64x64, .f32⟩
  | .local _ .vmem, ⟨0, _⟩ => ⟨S5000x512, .f32⟩
  | .local _ .vmem, ⟨1, _⟩ => ⟨S5000x512, .f32⟩
  | .local _ .vmem, ⟨2, _⟩ => ⟨S4x512, .f32⟩
  | .local _ .vmem, ⟨3, _⟩ => ⟨S4, .f32⟩
  | .local _ .vmem, ⟨4, _⟩ => ⟨S5000x8, .f32⟩
  | .local _ .vmem, ⟨5, _⟩ => ⟨S5000x8, .f32⟩
  | .local _ .vmem, ⟨6, _⟩ => ⟨S5000x64, .f32⟩
  | .local _ .vmem, ⟨7, _⟩ => ⟨S5000x64, .f32⟩
  | .local _ .vmem, ⟨8, _⟩ => ⟨S1000x64, .f32⟩
  | .local _ .vmem, ⟨9, _⟩ => ⟨S1000x64, .f32⟩
  | .local _ .vmem, ⟨10, _⟩ => ⟨S1000x4, .f32⟩
  | .local _ .vmem, ⟨11, _⟩ => ⟨S1000x4, .f32⟩
  | .local _ .vmem, ⟨12, _⟩ => ⟨S64x4, .f32⟩
  | .local _ .vmem, ⟨13, _⟩ => ⟨S64, .f32⟩
  | .local _ .vmem, ⟨14, _⟩ => ⟨S1000x4096, .f32⟩
  | .local _ .vmem, ⟨15, _⟩ => ⟨S1000x4096, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S5000x512_S5000x512_0_0 : ∀ a, (![0, 0] : Fin 2 → Nat) a + S5000x512.size a ≤ S5000x512.size a
  h_S5000x512 : 0 < S5000x512.numel
  inb_S4x512_S4x512_0_0 : ∀ a, (![0, 0] : Fin 2 → Nat) a + S4x512.size a ≤ S4x512.size a
  h_S4x512 : 0 < S4x512.numel
  bitsLt_bf16_f32 : FTy.bits .bf16 < FTy.bits .f32
  transposes_S4x512_p1_0_S512x4 : S4x512.Transposes [1, 0] S512x4
  inb_S4_S4_0 : ∀ a, (![0] : Fin 1 → Nat) a + S4.size a ≤ S4.size a
  h_S4 : 0 < S4.numel
  shapeCasts_S4_S1x4 : S4.ShapeCasts S1x4
  broadcasts_S1x4_S5000x4 : S1x4.Broadcasts S5000x4
  inb_S5000x8_S5000x4_0_0 : ∀ a, (![0, 0] : Fin 2 → Nat) a + S5000x4.size a ≤ S5000x8.size a
  h_S5000x4 : 0 < S5000x4.numel
  inb_S5000x8_S5000x4_0_4 : ∀ a, (![0, 4] : Fin 2 → Nat) a + S5000x4.size a ≤ S5000x8.size a
  slices_S5000x512_o0_0_S5000x64 : S5000x512.Slices ![0, 0] S5000x64
  inb_S5000x64_S5000x64_0_0 : ∀ a, (![0, 0] : Fin 2 → Nat) a + S5000x64.size a ≤ S5000x64.size a
  h_S5000x64 : 0 < S5000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1 : S_.BroadcastsInDim S1 (![] : Fin 0 → Fin S1.rank)
  bcast_S_S50000x8 : S_.BroadcastsInDim S50000x8 (![] : Fin 0 → Fin S50000x8.rank)
  slices_S50000x8_S50000x4_0_0 : S50000x8.Slices ![0, 0] S50000x4
  slices_S50000x8_S50000x1_0_4 : S50000x8.Slices ![0, 4] S50000x1
  shapeCasts_S50000x1_S50000 : S50000x1.ShapeCasts S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S50000 : S_.BroadcastsInDim S50000 (![] : Fin 0 → Fin S50000.rank)
  bcast_S50000x1_S50000x4_0_1 : S50000x1.BroadcastsInDim S50000x4 (![0, 1] : Fin 2 → Fin S50000x4.rank)
  bcast_S_S50000x4 : S_.BroadcastsInDim S50000x4 (![] : Fin 0 → Fin S50000x4.rank)
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S1000x4_S1000x4_0_0 : ∀ a, (![0, 0] : Fin 2 → Nat) a + S1000x4.size a ≤ S1000x4.size a
  h_S1000x4 : 0 < S1000x4.numel
  shapeCasts_S1000x4_S1000x4 : S1000x4.ShapeCasts S1000x4
  inb_S64x4_S64x4_0_0 : ∀ a, (![0, 0] : Fin 2 → Nat) a + S64x4.size a ≤ S64x4.size a
  h_S64x4 : 0 < S64x4.numel
  transposes_S64x4_p1_0_S4x64 : S64x4.Transposes [1, 0] S4x64
  inb_S64_S64_0 : ∀ a, (![0] : Fin 1 → Nat) a + S64.size a ≤ S64.size a
  h_S64 : 0 < S64.numel
  shapeCasts_S64_S1x1x64 : S64.ShapeCasts S1x1x64
  shapeCasts_S1x1x64_S1x1x64 : S1x1x64.ShapeCasts S1x1x64
  broadcasts_S1x1x64_S1000x8x64 : S1x1x64.Broadcasts S1000x8x64
  slices_S1000x64_o0_0_S1000x8 : S1000x64.Slices ![0, 0] S1000x8
  shapeCasts_S1000x8_S1000x8x1 : S1000x8.ShapeCasts S1000x8x1
  shapeCasts_S1000x64_S1000x1x64 : S1000x64.ShapeCasts S1000x1x64
  broadcasts_S1000x8x1_S1000x8x64 : S1000x8x1.Broadcasts S1000x8x64
  broadcasts_S1000x1x64_S1000x8x64 : S1000x1x64.Broadcasts S1000x8x64
  shapeCasts_S1000x8x64_S1000x512 : S1000x8x64.ShapeCasts S1000x512
  inb_S1000x4096_S1000x512_0_0 : ∀ a, (![0, 0] : Fin 2 → Nat) a + S1000x512.size a ≤ S1000x4096.size a
  h_S1000x512 : 0 < S1000x512.numel
  slices_S1000x64_o0_8_S1000x8 : S1000x64.Slices ![0, 8] S1000x8
  inb_S1000x4096_S1000x512_0_512 : ∀ a, (![0, 512] : Fin 2 → Nat) a + S1000x512.size a ≤ S1000x4096.size a
  slices_S1000x64_o0_16_S1000x8 : S1000x64.Slices ![0, 16] S1000x8
  inb_S1000x4096_S1000x512_0_1024 : ∀ a, (![0, 1024] : Fin 2 → Nat) a + S1000x512.size a ≤ S1000x4096.size a
  slices_S1000x64_o0_24_S1000x8 : S1000x64.Slices ![0, 24] S1000x8
  inb_S1000x4096_S1000x512_0_1536 : ∀ a, (![0, 1536] : Fin 2 → Nat) a + S1000x512.size a ≤ S1000x4096.size a
  slices_S1000x64_o0_32_S1000x8 : S1000x64.Slices ![0, 32] S1000x8
  inb_S1000x4096_S1000x512_0_2048 : ∀ a, (![0, 2048] : Fin 2 → Nat) a + S1000x512.size a ≤ S1000x4096.size a
  slices_S1000x64_o0_40_S1000x8 : S1000x64.Slices ![0, 40] S1000x8
  inb_S1000x4096_S1000x512_0_2560 : ∀ a, (![0, 2560] : Fin 2 → Nat) a + S1000x512.size a ≤ S1000x4096.size a
  slices_S1000x64_o0_48_S1000x8 : S1000x64.Slices ![0, 48] S1000x8
  inb_S1000x4096_S1000x512_0_3072 : ∀ a, (![0, 3072] : Fin 2 → Nat) a + S1000x512.size a ≤ S1000x4096.size a
  slices_S1000x64_o0_56_S1000x8 : S1000x64.Slices ![0, 56] S1000x8
  inb_S1000x4096_S1000x512_0_3584 : ∀ a, (![0, 3584] : Fin 2 → Nat) a + S1000x512.size a ≤ S1000x4096.size a
  shapeCasts_S50000x4096_S50000x64x64 : S50000x4096.ShapeCasts S50000x64x64
  dot_S5000x512_S512x4_S5000x4_1_0_0_1_n_n_wf : DotDims.WF S5000x512 S512x4 S5000x4 [1] [0] [0] [1] [] []
  gather_S50000x8_S1600000x1_S1600000x8_1_0_n_n_0_1_18_wf : GatherDims.WF S50000x8 S1600000x1 S1600000x8 [1] [0] [] [0] [] 1 ![1, 8]
  scatter_S1600000x8_S1_S1600000_0_1_1_0_wf : ScatterDims.WF S1600000x8 S1 S1600000 [0] [1] [1] 0
  scatter_S50000x8_S1600000x1_S1600000x8_1_0_0_1_wf : ScatterDims.WF S50000x8 S1600000x1 S1600000x8 [1] [0] [0] 1
  dot_S1000x4_S4x64_S1000x64_1_0_0_1_n_n_wf : DotDims.WF S1000x4 S4x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x512.size a ≤ S4x512.size a
  hwx0_1 : ∀ i : grid0.Coords, EltTy.bits .f32 = 32 ∨ (Rect.block (s := S4x512) S4x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4.size a ≤ S4.size a
  hwx0_2 : ∀ i : grid0.Coords, EltTy.bits .f32 = 32 ∨ (Rect.block (s := S4) S4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x8.size a ≤ S50000x8.size a
  hwx0_3 : ∀ i : grid0.Coords, EltTy.bits .f32 = 32 ∨ (Rect.block (s := S50000x8) S5000x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S50000x64.size a
  hwx1_0 : ∀ i : grid1.Coords, EltTy.bits .f32 = 32 ∨ (Rect.block (s := S50000x64) S1000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x4.size a ≤ S50000x4.size a
  hwx1_1 : ∀ i : grid1.Coords, EltTy.bits .f32 = 32 ∨ (Rect.block (s := S50000x4) S1000x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x4.size a ≤ S64x4.size a
  hwx1_2 : ∀ i : grid1.Coords, EltTy.bits .f32 = 32 ∨ (Rect.block (s := S64x4) S64x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x4096.size a ≤ S50000x4096.size a
  hwx1_4 : ∀ i : grid1.Coords, EltTy.bits .f32 = 32 ∨ (Rect.block (s := S50000x4096) S1000x4096.size (cc1_transform_4 i) (hinb1_4 i)).WholeWords (EltTy.packing .f32)

variable [Facts₀]

def dot_S5000x512_S512x4_S5000x4_1_0_0_1_n_n : DotDims S5000x512 S512x4 S5000x4 where
  lhsContracting := [1]
  rhsContracting := [0]
  lhsNonContracting := [0]
  rhsNonContracting := [1]
  lhsBatch := []
  rhsBatch := []
  wf := dot_S5000x512_S512x4_S5000x4_1_0_0_1_n_n_wf
def gather_S50000x8_S1600000x1_S1600000x8_1_0_n_n_0_1_18 : GatherDims S50000x8 S1600000x1 S1600000x8 where
  offsetDims := [1]
  collapsedSliceDims := [0]
  operandBatchingDims := []
  startIndicesBatchingDims := []
  startIndexMap := [0]
  indexVectorDim := 1
  sliceSizes := ![1, 8]
  wf := gather_S50000x8_S1600000x1_S1600000x8_1_0_n_n_0_1_18_wf
def scatter_S1600000x8_S1_S1600000_0_1_1_0 : ScatterDims S1600000x8 S1 S1600000 where
  updateWindowDims := [0]
  insertedWindowDims := [1]
  scatterDimsToOperandDims := [1]
  indexVectorDim := 0
  wf := scatter_S1600000x8_S1_S1600000_0_1_1_0_wf
def scatter_S50000x8_S1600000x1_S1600000x8_1_0_0_1 : ScatterDims S50000x8 S1600000x1 S1600000x8 where
  updateWindowDims := [1]
  insertedWindowDims := [0]
  scatterDimsToOperandDims := [0]
  indexVectorDim := 1
  wf := scatter_S50000x8_S1600000x1_S1600000x8_1_0_0_1_wf
def dot_S1000x4_S4x64_S1000x64_1_0_0_1_n_n : DotDims S1000x4 S4x64 S1000x64 where
  lhsContracting := [1]
  rhsContracting := [0]
  lhsNonContracting := [0]
  rhsNonContracting := [1]
  lhsBatch := []
  rhsBatch := []
  wf := dot_S1000x4_S4x64_S1000x64_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S5000x8.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_1) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1000x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x1600000 : Shape := ⟨2, ![2, 1600000]⟩
abbrev S4x512 : Shape := ⟨2, ![4, 512]⟩
abbrev S4 : Shape := ⟨1, ![4]⟩
abbrev S64x4 : Shape := ⟨2, ![64, 4]⟩
abbrev S64 : Shape := ⟨1, ![64]⟩
abbrev S1x1600000 : Shape := ⟨2, ![1, 1600000]⟩
abbrev S1600000 : Shape := ⟨1, ![1600000]⟩
abbrev S512x4 : Shape := ⟨2, ![512, 4]⟩
abbrev S50000x4 : Shape := ⟨2, ![50000, 4]⟩
abbrev S1x4 : Shape := ⟨2, ![1, 4]⟩
abbrev S_ : Shape := ⟨0, ![]⟩
abbrev S1600000x1 : Shape := ⟨2, ![1600000, 1]⟩
abbrev S1600000x4 : Shape := ⟨2, ![1600000, 4]⟩
abbrev S50000 : Shape := ⟨1, ![50000]⟩
abbrev S50000x1 : Shape := ⟨2, ![50000, 1]⟩
abbrev S50000x1x4 : Shape := ⟨3, ![50000, 1, 4]⟩
abbrev S50000x64 : Shape := ⟨2, ![50000, 64]⟩
abbrev S50000x64x1 : Shape := ⟨3, ![50000, 64, 1]⟩
abbrev S50000x64x4 : Shape := ⟨3, ![50000, 64, 4]⟩
abbrev S50000x64x64 : Shape := ⟨3, ![50000, 64, 64]⟩
abbrev S1x1x64 : Shape := ⟨3, ![1, 1, 64]⟩

abbrev nBuf : Space → Nat
  | .hbm => 63
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x1600000, .i32⟩
  | .hbm, ⟨2, _⟩ => ⟨S4x512, .f32⟩
  | .hbm, ⟨3, _⟩ => ⟨S4, .f32⟩
  | .hbm, ⟨4, _⟩ => ⟨S64x4, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S512x4, .f32⟩
  | .hbm, ⟨11, _⟩ => ⟨S50000x4, .f32⟩
  | .hbm, ⟨12, _⟩ => ⟨S1x4, .f32⟩
  | .hbm, ⟨13, _⟩ => ⟨S50000x4, .f32⟩
  | .hbm, ⟨14, _⟩ => ⟨S50000x4, .f32⟩
  | .hbm, ⟨15, _⟩ => ⟨S50000x4, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x4, .f32⟩
  | .hbm, ⟨25, _⟩ => ⟨S_, .f32⟩
  | .hbm, ⟨26, _⟩ => ⟨S50000x4, .f32⟩
  | .hbm, ⟨27, _⟩ => ⟨S1600000x1, .i32⟩
  | .hbm, ⟨28, _⟩ => ⟨S50000x4, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S50000, .f32⟩
  | .hbm, ⟨33, _⟩ => ⟨S1600000x1, .i32⟩
  | .hbm, ⟨34, _⟩ => ⟨S50000, .f32⟩
  | .hbm, ⟨35, _⟩ => ⟨S50000x1, .f32⟩
  | .hbm, ⟨36, _⟩ => ⟨S_, .f32⟩
  | .hbm, ⟨37, _⟩ => ⟨S50000x1, .f32⟩
  | .hbm, ⟨38, _⟩ => ⟨S50000x1, .i1⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S50000x4, .f32⟩
  | .hbm, ⟨44, _⟩ => ⟨S50000x4, .f32⟩
  | .hbm, ⟨45, _⟩ => ⟨S_, .f32⟩
  | .hbm, ⟨46, _⟩ => ⟨S_, .f32⟩
  | .hbm, ⟨47, _⟩ => ⟨S50000x4, .i1⟩
  | .hbm, ⟨48, _⟩ => ⟨S50000x4, .f32⟩
  | .hbm, ⟨49, _⟩ => ⟨S50000x4, .f32⟩
  | .hbm, ⟨50, _⟩ => ⟨S50000x1x4, .f32⟩
  | .hbm, ⟨51, _⟩ => ⟨S50000x64, .f32⟩
  | .hbm, ⟨52, _⟩ => ⟨S50000x64x1, .f32⟩
  | .hbm, ⟨53, _⟩ => ⟨S50000x64x4, .f32⟩
  | .hbm, ⟨54, _⟩ => ⟨S50000x64x4, .f32⟩
  | .hbm, ⟨55, _⟩ => ⟨S50000x64x4, .f32⟩
  | .hbm, ⟨56, _⟩ => ⟨S50000x64x64, .f32⟩
  | .hbm, ⟨57, _⟩ => ⟨S1x1x64, .f32⟩
  | .hbm, ⟨58, _⟩ => ⟨S50000x64x64, .f32⟩
  | .hbm, ⟨59, _⟩ => ⟨S50000x64x64, .f32⟩
  | .hbm, ⟨60, _⟩ => ⟨S_, .f32⟩
  | .hbm, ⟨61, _⟩ => ⟨S50000x64x64, .f32⟩
  | .hbm, ⟨62, _⟩ => ⟨S50000x64x64, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_call1_cst : Ref sig .tc := ⟨.hbm, 60, rfl⟩
abbrev main_call1_v0 : Ref sig .tc := ⟨.hbm, 61, rfl⟩
abbrev main_v43 : Ref sig .tc := ⟨.hbm, 62, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S4x512_S512x4_1_0 : S4x512.Transposes [1, 0] S512x4
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x4 : S_.BroadcastsInDim S50000x4 (![] : Fin 0 → Fin S50000x4.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x4_0_1 : S50000x1.BroadcastsInDim S50000x4 (![0, 1] : Fin 2 → Fin S50000x4.rank)
  bcast_S50000x4_S50000x1x4_0_2 : S50000x4.BroadcastsInDim S50000x1x4 (![0, 2] : Fin 2 → Fin S50000x1x4.rank)
  slices_S50000x512_S50000x64_0_0 : S50000x512.Slices ![0, 0] S50000x64
  bcast_S50000x64_S50000x64x1_0_1 : S50000x64.BroadcastsInDim S50000x64x1 (![0, 1] : Fin 2 → Fin S50000x64x1.rank)
  bcast_S50000x1x4_S50000x64x4_0_1_2 : S50000x1x4.BroadcastsInDim S50000x64x4 (![0, 1, 2] : Fin 3 → Fin S50000x64x4.rank)
  bcast_S50000x64x1_S50000x64x4_0_1_2 : S50000x64x1.BroadcastsInDim S50000x64x4 (![0, 1, 2] : Fin 3 → Fin S50000x64x4.rank)
  bcast_S64_S1x1x64_2 : S64.BroadcastsInDim S1x1x64 (![2] : Fin 1 → Fin S1x1x64.rank)
  bcast_S1x1x64_S50000x64x64_0_1_2 : S1x1x64.BroadcastsInDim S50000x64x64 (![0, 1, 2] : Fin 3 → Fin S50000x64x64.rank)
  bcast_S_S50000x64x64 : S_.BroadcastsInDim S50000x64x64 (![] : Fin 0 → Fin S50000x64x64.rank)
  dot_S50000x512_S512x4_S50000x4_1_0_0_1_n_n_wf : DotDims.WF S50000x512 S512x4 S50000x4 [1] [0] [0] [1] [] []
  gather_S50000x4_S1600000x1_S1600000x4_1_0_n_n_0_1_14_wf : GatherDims.WF S50000x4 S1600000x1 S1600000x4 [1] [0] [] [0] [] 1 ![1, 4]
  scatter_S50000x4_S1600000x1_S1600000x4_1_0_0_1_wf : ScatterDims.WF S50000x4 S1600000x1 S1600000x4 [1] [0] [0] 1
  scatter_S50000_S1600000x1_S1600000_n_0_0_1_wf : ScatterDims.WF S50000 S1600000x1 S1600000 [] [0] [0] 1
  dot_S50000x64x4_S64x4_S50000x64x64_2_1_01_0_n_n_wf : DotDims.WF S50000x64x4 S64x4 S50000x64x64 [2] [1] [0, 1] [0] [] []

variable [Facts₀]

def dot_S50000x512_S512x4_S50000x4_1_0_0_1_n_n : DotDims S50000x512 S512x4 S50000x4 where
  lhsContracting := [1]
  rhsContracting := [0]
  lhsNonContracting := [0]
  rhsNonContracting := [1]
  lhsBatch := []
  rhsBatch := []
  wf := dot_S50000x512_S512x4_S50000x4_1_0_0_1_n_n_wf
def gather_S50000x4_S1600000x1_S1600000x4_1_0_n_n_0_1_14 : GatherDims S50000x4 S1600000x1 S1600000x4 where
  offsetDims := [1]
  collapsedSliceDims := [0]
  operandBatchingDims := []
  startIndicesBatchingDims := []
  startIndexMap := [0]
  indexVectorDim := 1
  sliceSizes := ![1, 4]
  wf := gather_S50000x4_S1600000x1_S1600000x4_1_0_n_n_0_1_14_wf
def scatter_S50000x4_S1600000x1_S1600000x4_1_0_0_1 : ScatterDims S50000x4 S1600000x1 S1600000x4 where
  updateWindowDims := [1]
  insertedWindowDims := [0]
  scatterDimsToOperandDims := [0]
  indexVectorDim := 1
  wf := scatter_S50000x4_S1600000x1_S1600000x4_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x64x4_S64x4_S50000x64x64_2_1_01_0_n_n : DotDims S50000x64x4 S64x4 S50000x64x64 where
  lhsContracting := [2]
  rhsContracting := [1]
  lhsNonContracting := [0, 1]
  rhsNonContracting := [0]
  lhsBatch := []
  rhsBatch := []
  wf := dot_S50000x64x4_S64x4_S50000x64x64_2_1_01_0_n_n_wf

class Facts : Prop extends Facts₀ where

variable [Facts]
-- ==== Proof.LibScatter.lean ====
/-
  A gather of rows, a scatter of rows, and a column overwritten, each read at an index.

  Three arrangements of the host's indexed operations over a table of `N` rows:

  * `x[idx]` for a table `x : [N, C]` and one index per result row, `idx : [R, 1]`: result row `e` is the table's
    row at the start index `idx[e, 0]`, read as a signed integer and clamped into `[0, N - 1]`;
  * the accumulating scatter of `R` update rows (or `R` update scalars) into a table of `N` rows (or `N` scalars) at one
    index per update: over the extended reals entry `(n, l)` ends at the operand's entry plus the sum of the updates'
    entries `(e, l)` over the updates `e` whose index, read signed and NOT clamped, is `n`; an update whose index is
    outside the table contributes nothing;
  * the overwriting scatter of one column: `x.at[:, k].set(v)` for `x : [R, C]`, `v : [R]`, the column `k` given by
    a one-element index vector: entry `(e, l)` ends at `v e` when `l` is that column and is unchanged otherwise.
-/
import Idealize.ShloMosaic.Lib.ValueIdx
import Idealize.ShloMosaic.PureOps.Ideal.Laws

noncomputable section

namespace Cert.LibScatter

open Idealize.ShloMosaic Idealize.ShloMosaic.ValueIdx

variable {N R C w : ℕ}

/-! ## The dimension numbers -/

/-- `x[idx]` along axis 0 of a table `[N, C]` at start indices `[R, 1]`: whole rows are taken. -/
abbrev rowGatherDims (N R C : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ :=
  ⟨[1], [0], [], [], [0], 1, ![1, C], wf⟩

/-- Update rows `[R, C]` scattered into a table `[N, C]` at scatter indices `[R, 1]`. -/
abbrev rowScatterDims (N R C : ℕ)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ :=
  ⟨[1], [0], [0], 1, wf⟩

/-- Update scalars `[R]` scattered into a vector `[N]` at scatter indices `[R, 1]`. -/
abbrev vecScatterDims (N R : ℕ)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ :=
  ⟨[], [0], [0], 1, wf⟩

/-- A column `[R]` written into a matrix `[R, C]` at the column a one-element index vector names. -/
abbrev colSetDims (R C : ℕ)
    (wf : ScatterDims.WF ⟨2, ![R, C]⟩ ⟨1, ![1]⟩ ⟨1, ![R]⟩ [0] [1] [1] 0) :
    ScatterDims ⟨2, ![R, C]⟩ ⟨1, ![1]⟩ ⟨1, ![R]⟩ :=
  ⟨[0], [1], [1], 0, wf⟩

/-! ## Where an update lands -/

/-- An update lands on the operand index `i` exactly when on every axis its start, read signed, plus its window
    coordinate is `i`'s coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  split
  · rename_i h
    constructor
    · intro he a
      have h2 := congrFun (Option.some.inj he) a
      have h3 : (d.start j idx a + (d.window j a : ℤ)).toNat = (i a).val := congrArg Fin.val h2
      have := (h a).1
      omega
    · intro he
      congr 1
      funext a
      apply Fin.ext
      show (d.start j idx a + (d.window j a : ℤ)).toNat = (i a).val
      have := he a
      omega
  · rename_i h
    constructor
    · intro he; cases he
    · intro he
      exfalso; apply h
      intro a
      have := he a
      have := (i a).isLt
      omega

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-! ## The accumulating scatters, over the extended reals -/

/-- On the scattered axis a row update's start plus window coordinate is its index, read signed. -/
theorem rowScatter_axis0 (wf : ScatterDims.WF ⟨2, ![N, C]⟩ ⟨2, ![R, 1]⟩ ⟨2, ![R, C]⟩ [1] [0] [0] 1)
    (idx : IVec ⟨2, ![R, 1]⟩ w) (e : Fin R) (l' : Fin C) :
    (rowScatterDims N R C wf).start (ix2 e l') idx 0 + ((rowScatterDims N R C wf).window (ix2 e l') 0 : ℤ)
      = (idx (ix2 e (0 : Fin 1))).toInt := by
  have hw : (rowScatterDims N R C wf).window (ix2 e l') 0 = 0 := rfl
  rw [hw]
  unfold ScatterDims.start
  rw [dif_pos (show (0 : Fin 2) ∈ (rowScatterDims N R C wf).scatterDimsToOperandDims from List.mem_singleton.mpr rfl)]
  have hsi : (rowScatterDims N R C wf).siIdx (ix2 e l') ⟨List.idxOf (0 : Fin 2) (rowScatterDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  simp

/-- On the window axis a row update's start plus window coordinate is its column. -/
theorem rowScatter_axis1 (wf : ScatterDims.WF ⟨2, ![N, C]⟩ ⟨2, ![R, 1]⟩ ⟨2, ![R, C]⟩ [1] [0] [0] 1)
    (idx : IVec ⟨2, ![R, 1]⟩ w) (e : Fin R) (l' : Fin C) :
    (rowScatterDims N R C wf).start (ix2 e l') idx 1 + ((rowScatterDims N R C wf).window (ix2 e l') 1 : ℤ)
      = (l'.val : ℤ) := by
  have hw : (rowScatterDims N R C wf).window (ix2 e l') 1 = l'.val := rfl
  have hs : (rowScatterDims N R C wf).start (ix2 e l') idx 1 = 0 := rfl
  rw [hw, hs]
  simp

/-- The update entry `(e, l')` lands on `(n, l)` exactly when update `e`'s index is `n` and `l' = l`. -/
theorem rowScatter_lands (wf : ScatterDims.WF ⟨2, ![N, C]⟩ ⟨2, ![R, 1]⟩ ⟨2, ![R, C]⟩ [1] [0] [0] 1)
    (idx : IVec ⟨2, ![R, 1]⟩ w) (e : Fin R) (l' : Fin C) (n : Fin N) (l : Fin C) :
    (rowScatterDims N R C wf).resultIdx? (ix2 e l') idx = some (ix2 n l)
      ↔ (idx (ix2 e (0 : Fin 1))).toInt = (n.val : ℤ) ∧ l' = l := by
  rw [resultIdx?_eq_some_iff]
  constructor
  · intro h
    have h0 : (idx (ix2 e (0 : Fin 1))).toInt = (n.val : ℤ) := (rowScatter_axis0 wf idx e l').symm.trans (h 0)
    have h1 : (l'.val : ℤ) = (l.val : ℤ) := (rowScatter_axis1 wf idx e l').symm.trans (h 1)
    exact ⟨h0, Fin.ext (by exact_mod_cast h1)⟩
  · rintro ⟨h0, rfl⟩ a
    match a with
    | ⟨0, _⟩ => exact (rowScatter_axis0 wf idx e l').trans h0
    | ⟨1, _⟩ => exact rowScatter_axis1 wf idx e l'

/-- Entry `(n, l)` after the accumulating scatter of rows: the operand's entry plus the entries `(e, l)` of the update
    rows whose index is `n`. -/
theorem rowScatterAdd_apply {φ : FTy}
    (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ)
    (n : Fin N) (l : Fin C) :
    Host.scatterAdd (F := Ideal) (rowScatterDims N R C wf) x idx upd (ix2 n l)
      = x (ix2 n l) + ∑ e : Fin R, if (idx (ix2 e (0 : Fin 1))).toInt = (n.val : ℤ) then upd (ix2 e l) else 0 := by
  show x (ix2 n l) + ∑ j ∈ Finset.univ.filter
      (fun j => (rowScatterDims N R C wf).resultIdx? j idx = some (ix2 n l)), upd j = _
  congr 1
  rw [Finset.sum_filter, sum_idx2]
  refine Finset.sum_congr rfl fun e _ => ?_
  simp only [rowScatter_lands]
  by_cases h : (idx (ix2 e (0 : Fin 1))).toInt = (n.val : ℤ)
  · simp only [h, true_and, if_true]
    rw [Finset.sum_ite_eq']
    simp
  · simp [h]

/-- On its one axis a scalar update's start plus window coordinate is its index, read signed. -/
theorem vecScatter_axis0 (wf : ScatterDims.WF ⟨1, ![N]⟩ ⟨2, ![R, 1]⟩ ⟨1, ![R]⟩ [] [0] [0] 1)
    (idx : IVec ⟨2, ![R, 1]⟩ w) (e : Fin R) :
    (vecScatterDims N R wf).start (ix1 e) idx 0 + ((vecScatterDims N R wf).window (ix1 e) 0 : ℤ)
      = (idx (ix2 e (0 : Fin 1))).toInt := by
  have hw : (vecScatterDims N R wf).window (ix1 e) 0 = 0 := rfl
  rw [hw]
  unfold ScatterDims.start
  rw [dif_pos (show (0 : Fin 1) ∈ (vecScatterDims N R wf).scatterDimsToOperandDims from List.mem_singleton.mpr rfl)]
  have hsi : (vecScatterDims N R wf).siIdx (ix1 e) ⟨List.idxOf (0 : Fin 1) (vecScatterDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  simp

/-- The update `e` lands on `n` exactly when its index is `n`. -/
theorem vecScatter_lands (wf : ScatterDims.WF ⟨1, ![N]⟩ ⟨2, ![R, 1]⟩ ⟨1, ![R]⟩ [] [0] [0] 1)
    (idx : IVec ⟨2, ![R, 1]⟩ w) (e : Fin R) (n : Fin N) :
    (vecScatterDims N R wf).resultIdx? (ix1 e) idx = some (ix1 n)
      ↔ (idx (ix2 e (0 : Fin 1))).toInt = (n.val : ℤ) := by
  rw [resultIdx?_eq_some_iff]
  constructor
  · intro h
    exact (vecScatter_axis0 wf idx e).symm.trans (h 0)
  · intro h0 a
    match a with
    | ⟨0, _⟩ => exact (vecScatter_axis0 wf idx e).trans h0

/-- Entry `n` after the accumulating scatter of scalars: the operand's entry plus the updates whose index is `n`. -/
theorem vecScatterAdd_apply {φ : FTy}
    (wf : ScatterDims.WF ⟨1, ![N]⟩ ⟨2, ![R, 1]⟩ ⟨1, ![R]⟩ [] [0] [0] 1)
    (x : FVec Ideal ⟨1, ![N]⟩ φ) (idx : IVec ⟨2, ![R, 1]⟩ w) (upd : FVec Ideal ⟨1, ![R]⟩ φ) (n : Fin N) :
    Host.scatterAdd (F := Ideal) (vecScatterDims N R wf) x idx upd (ix1 n)
      = x (ix1 n) + ∑ e : Fin R, if (idx (ix2 e (0 : Fin 1))).toInt = (n.val : ℤ) then upd (ix1 e) else 0 := by
  show x (ix1 n) + ∑ j ∈ Finset.univ.filter
      (fun j => (vecScatterDims N R wf).resultIdx? j idx = some (ix1 n)), upd j = _
  congr 1
  rw [Finset.sum_filter, sum_idx1]
  refine Finset.sum_congr rfl fun e _ => ?_
  simp only [vecScatter_lands]

/-! ## The gather of rows -/

/-- Result entry `(e, l)` of the row gather is the table's entry `(r, l)`, `r` the start index `idx[e, 0]` read signed and
    clamped into `[0, N - 1]`. -/
theorem rowGather_apply {α : Type} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (l : Fin C) :
    Host.gather (rowGatherDims N R C wf) x idx (ix2 e l)
      = x (ix2 (⟨min (idx (ix2 e (0 : Fin 1))).toInt.toNat (N - 1), by omega⟩ : Fin N) l) := by
  unfold Host.gather
  congr 1
  funext a
  refine Fin.ext ?_
  match a with
  | ⟨0, _⟩ =>
    show (rowGatherDims N R C wf).start (ix2 e l) idx 0 + (rowGatherDims N R C wf).batchCoord (ix2 e l) 0
      + (rowGatherDims N R C wf).offCoord (ix2 e l) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e l) ⟨List.idxOf (0 : Fin 2) (rowGatherDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N R C wf).start (ix2 e l) idx 1 + (rowGatherDims N R C wf).batchCoord (ix2 e l) 1
      + (rowGatherDims N R C wf).offCoord (ix2 e l) 1 = l.val
    rw [GatherDims.batchCoord_eq_zero _ _ _ List.not_mem_nil]
    have hs : (rowGatherDims N R C wf).start (ix2 e l) idx 1 = 0 := rfl
    have ho : (rowGatherDims N R C wf).offCoord (ix2 e l) 1 = l.val := rfl
    rw [hs, ho]
    simp

/-! ## One column overwritten -/

/-- A left fold of steps that leave entry `i` alone leaves it alone. -/
theorem foldl_at_of_miss {ι β γ : Type} (step : (ι → β) → γ → (ι → β)) (i : ι) (lands : γ → Prop)
    (hmiss : ∀ r n, ¬ lands n → step r n i = r i) :
    ∀ (L : List γ) (r : ι → β), (∀ n ∈ L, ¬ lands n) → L.foldl step r i = r i := by
  intro L
  induction L with
  | nil => intro r _; rfl
  | cons n L ih =>
    intro r h
    rw [List.foldl_cons, ih _ (fun m hm => h m (List.mem_cons_of_mem _ hm)),
      hmiss r n (h n (List.mem_cons.mpr (Or.inl rfl)))]

/-- A left fold of steps each of which either leaves entry `i` alone or sets it to its own value: when every step that
    sets it sets it to `v`, and the entry is `v` at the start or some step sets it, the entry ends at `v`. -/
theorem foldl_at_of_hit {ι β γ : Type} (step : (ι → β) → γ → (ι → β)) (i : ι) (lands : γ → Prop) (val : γ → β) (v : β)
    (hmiss : ∀ r n, ¬ lands n → step r n i = r i) (hhit : ∀ r n, lands n → step r n i = val n) :
    ∀ (L : List γ) (r : ι → β), (∀ n ∈ L, lands n → val n = v) → (r i = v ∨ ∃ n ∈ L, lands n) →
      L.foldl step r i = v := by
  intro L
  induction L with
  | nil =>
    intro r _ h
    rcases h with h | ⟨n, hn, _⟩
    · exact h
    · cases hn
  | cons n L ih =>
    intro r hv h
    rw [List.foldl_cons]
    apply ih _ (fun m hm => hv m (List.mem_cons_of_mem _ hm))
    by_cases hl : lands n
    · left; rw [hhit r n hl]; exact hv n (List.mem_cons.mpr (Or.inl rfl)) hl
    · rcases h with h | ⟨m, hm, hlm⟩
      · left; rw [hmiss r n hl]; exact h
      · rcases List.mem_cons.mp hm with rfl | hm'
        · exact absurd hlm hl
        · right; exact ⟨m, hm', hlm⟩

/-- The overwriting scatter leaves alone an entry no update lands on. -/
theorem scatter_set_of_miss {s si u : Shape} {α : Type} (d : ScatterDims s si u) {w : ℕ} (x : s.Idx → α)
    (idx : IVec si w) (upd : u.Idx → α) (i : s.Idx) (h : ∀ j, d.resultIdx? j idx ≠ some i) :
    Host.scatter d (fun _ b => b) x idx upd i = x i := by
  unfold Host.scatter
  refine foldl_at_of_miss _ i (fun n => d.resultIdx? (u.rowMajor.symm n) idx = some i) ?_ _ x (fun n _ => h _)
  intro r n hl
  dsimp only
  cases hres : d.resultIdx? (u.rowMajor.symm n) idx with
  | none => rfl
  | some i1 =>
    dsimp only
    rw [if_neg]
    rintro rfl
    exact hl hres

/-- The overwriting scatter sets an entry that some update lands on, every update landing on it carrying one value, to
    that value. -/
theorem scatter_set_of_hit {s si u : Shape} {α : Type} (d : ScatterDims s si u) {w : ℕ} (x : s.Idx → α)
    (idx : IVec si w) (upd : u.Idx → α) (i : s.Idx) (j0 : u.Idx) (h0 : d.resultIdx? j0 idx = some i)
    (h : ∀ j, d.resultIdx? j idx = some i → upd j = upd j0) :
    Host.scatter d (fun _ b => b) x idx upd i = upd j0 := by
  unfold Host.scatter
  refine foldl_at_of_hit _ i (fun n => d.resultIdx? (u.rowMajor.symm n) idx = some i)
    (fun n => upd (u.rowMajor.symm n)) (upd j0) ?_ ?_ _ x (fun n _ hl => h _ hl)
    (Or.inr ⟨u.rowMajor j0, List.mem_finRange _, by rw [Equiv.symm_apply_apply]; exact h0⟩)
  · intro r n hl
    dsimp only
    cases hres : d.resultIdx? (u.rowMajor.symm n) idx with
    | none => rfl
    | some i1 =>
      dsimp only
      rw [if_neg]
      rintro rfl
      exact hl hres
  · intro r n hl
    dsimp only at hl ⊢
    rw [hl]
    dsimp only
    rw [if_pos rfl]

/-- On the row axis a column entry's start plus window coordinate is its row. -/
theorem colSet_axis0 (wf : ScatterDims.WF ⟨2, ![R, C]⟩ ⟨1, ![1]⟩ ⟨1, ![R]⟩ [0] [1] [1] 0)
    (idx : IVec ⟨1, ![1]⟩ w) (e' : Fin R) :
    (colSetDims R C wf).start (ix1 e') idx 0 + ((colSetDims R C wf).window (ix1 e') 0 : ℤ) = (e'.val : ℤ) := by
  have hw : (colSetDims R C wf).window (ix1 e') 0 = e'.val := rfl
  have hs : (colSetDims R C wf).start (ix1 e') idx 0 = 0 := rfl
  rw [hw, hs]
  simp

/-- On the column axis a column entry's start plus window coordinate is the one index, read signed. -/
theorem colSet_axis1 (wf : ScatterDims.WF ⟨2, ![R, C]⟩ ⟨1, ![1]⟩ ⟨1, ![R]⟩ [0] [1] [1] 0)
    (idx : IVec ⟨1, ![1]⟩ w) (e' : Fin R) :
    (colSetDims R C wf).start (ix1 e') idx 1 + ((colSetDims R C wf).window (ix1 e') 1 : ℤ)
      = (idx (ix1 (0 : Fin 1))).toInt := by
  have hw : (colSetDims R C wf).window (ix1 e') 1 = 0 := rfl
  rw [hw]
  unfold ScatterDims.start
  rw [dif_pos (show (1 : Fin 2) ∈ (colSetDims R C wf).scatterDimsToOperandDims from List.mem_singleton.mpr rfl)]
  have hsi : (colSetDims R C wf).siIdx (ix1 e') ⟨List.idxOf (1 : Fin 2) (colSetDims R C wf).scatterDimsToOperandDims,
      List.idxOf_lt_length_iff.2 (List.mem_singleton.mpr rfl)⟩ = ix1 (0 : Fin 1) := by
    funext b; refine Fin.ext ?_
    match b with
    | ⟨0, _⟩ => rfl
  rw [hsi]
  simp

/-- The new column's entry `e'` lands on `(e, l)` exactly when `e' = e` and the index, read signed, is `l`. -/
theorem colSet_lands (wf : ScatterDims.WF ⟨2, ![R, C]⟩ ⟨1, ![1]⟩ ⟨1, ![R]⟩ [0] [1] [1] 0)
    (idx : IVec ⟨1, ![1]⟩ w) (e' e : Fin R) (l : Fin C) :
    (colSetDims R C wf).resultIdx? (ix1 e') idx = some (ix2 e l)
      ↔ e' = e ∧ (idx (ix1 (0 : Fin 1))).toInt = (l.val : ℤ) := by
  rw [resultIdx?_eq_some_iff]
  constructor
  · intro h
    have h0 : (e'.val : ℤ) = (e.val : ℤ) := (colSet_axis0 wf idx e').symm.trans (h 0)
    have h1 : (idx (ix1 (0 : Fin 1))).toInt = (l.val : ℤ) := (colSet_axis1 wf idx e').symm.trans (h 1)
    exact ⟨Fin.ext (by exact_mod_cast h0), h1⟩
  · rintro ⟨rfl, h1⟩ a
    match a with
    | ⟨0, _⟩ => exact colSet_axis0 wf idx e'
    | ⟨1, _⟩ => exact (colSet_axis1 wf idx e').trans h1

/-- Entry `(e, l)` after the column write: the new column's entry `e` when `l` is the column the index vector names, the
    old entry otherwise (a column index outside `[0, C)` writes nothing). -/
theorem colSet_apply {α : Type}
    (wf : ScatterDims.WF ⟨2, ![R, C]⟩ ⟨1, ![1]⟩ ⟨1, ![R]⟩ [0] [1] [1] 0)
    (x : (⟨2, ![R, C]⟩ : Shape).Idx → α) (idx : IVec ⟨1, ![1]⟩ w) (upd : (⟨1, ![R]⟩ : Shape).Idx → α)
    (e : Fin R) (l : Fin C) :
    Host.scatter (colSetDims R C wf) (fun _ b => b) x idx upd (ix2 e l)
      = if (idx (ix1 (0 : Fin 1))).toInt = (l.val : ℤ) then upd (ix1 e) else x (ix2 e l) := by
  by_cases hk : (idx (ix1 (0 : Fin 1))).toInt = (l.val : ℤ)
  · rw [if_pos hk]
    refine scatter_set_of_hit _ x idx upd (ix2 e l) (ix1 e) ((colSet_lands wf idx e e l).mpr ⟨rfl, hk⟩) fun j hj => ?_
    rw [eq_ix1 j] at hj ⊢
    exact congrArg (fun t => upd (ix1 t)) ((colSet_lands wf idx _ e l).mp hj).1
  · rw [if_neg hk]
    refine scatter_set_of_miss _ x idx upd (ix2 e l) fun j hj => ?_
    rw [eq_ix1 j] at hj
    exact hk ((colSet_lands wf idx _ e l).mp hj).2

end Cert.LibScatter

end
-- ==== Proof.Spec.lean ====
/-
  The mathematics both programs compute: a mean of a bounded node signal over each node's in-edges, spread by an
  outer product with the node's first features.

  For `N = 50000` nodes with `512` features each, `E = 1600000` edges `(src e, tgt e)`, four cores `(w_c, b_c)`
  and an output map `(W, b)` into `64` channels:

    signal n c   = tanh (Σ_k x[n,k] · w[c,k] + b_c)
    total  n c   = Σ over the edges e with tgt e = n of  signal (row e) c
    count  n     = the number of edges e with tgt e = n
    mean   n c   = total n c / max (count n) 1   if count n > 0,   0 otherwise
    out    n f o = max (Σ_c (mean n c · x[n,f]) · W[o,c] + b[o]) 0.

  An edge's source index is read as the programs read it: a negative index has `N` added (a wrapping 32-bit sum), the
  result is clamped into `[0, N - 1]` (`row e`); its target index is read signed and an edge whose target is no node
  contributes to no total and no count.

  The second arrangement `outFactored` takes the node's feature out of the sum over the cores,
  `x[n,f] · Σ_c mean n c · W[o,c]`: the same number whenever the entries of `x` and `W` are finite, since the means
  always are (module `MeanFinite`).
-/
import Idealize.ShloMosaic.Lib.ValueIdx
import Idealize.ShloMosaic.PureOps.Ideal.Laws

noncomputable section

namespace Cert.GraphMean

open Idealize.ShloMosaic Idealize.ShloMosaic.ValueIdx

/-- The words of `0.0` and `1.0`, left as the programs spell them. -/
abbrev zeroF : EReal := Ideal.ofBits .f32 0x00000000#32
abbrev oneF : EReal := Ideal.ofBits .f32 0x3F800000#32

variable (X : (⟨2, ![50000, 512]⟩ : Shape).Idx → EReal) (EI : IVec ⟨2, ![2, 1600000]⟩ 32)
  (CW : (⟨2, ![4, 512]⟩ : Shape).Idx → EReal) (CB : (⟨1, ![4]⟩ : Shape).Idx → EReal)
  (WO : (⟨2, ![64, 4]⟩ : Shape).Idx → EReal) (BO : (⟨1, ![64]⟩ : Shape).Idx → EReal)

/-- A node's signal at a core. -/
def signal (n : Fin 50000) (c : Fin 4) : EReal :=
  Ideal.tanh ((∑ k : Fin 512, X (ix2 n k) * CW (ix2 c k)) + CB (ix1 c))

/-- An edge's source word after the programs' normalisation: `N` added to a negative index. -/
def srcWord (e : Fin 1600000) : BitVec 32 :=
  Scalar.select (IntOp.cmpi .slt (EI (ix2 (0 : Fin 2) e)) 0#32) (IntOp.addi (EI (ix2 (0 : Fin 2) e)) 50000#32)
    (EI (ix2 (0 : Fin 2) e))

/-- The table row an edge's source reads: the normalised word, signed, clamped into the table. -/
def row (e : Fin 1600000) : Fin 50000 := ⟨min (srcWord EI e).toInt.toNat (50000 - 1), by omega⟩

/-- The signal summed over a node's in-edges, from the zero word. -/
def total (S : Fin 50000 → Fin 4 → EReal) (n : Fin 50000) (c : Fin 4) : EReal :=
  zeroF + ∑ e : Fin 1600000, if (EI (ix2 (1 : Fin 2) e)).toInt = (n.val : ℤ) then S (row EI e) c else 0

/-- A node's in-degree, as the sum of the one word over its in-edges. -/
def count (n : Fin 50000) : EReal :=
  zeroF + ∑ e : Fin 1600000, if (EI (ix2 (1 : Fin 2) e)).toInt = (n.val : ℤ) then oneF else 0

/-- The mean signal over a node's in-edges; zero at a node without in-edges. -/
def mean (S : Fin 50000 → Fin 4 → EReal) (n : Fin 50000) (c : Fin 4) : EReal :=
  Scalar.select (Ideal.cmp .ogt (count EI n) zeroF) (Ideal.div (total EI S n c) (max (count EI n) oneF)) zeroF

/-- The result, the feature multiplied in under the sum over the cores. -/
def out (n : Fin 50000) (f o : Fin 64) : EReal :=
  max ((∑ c : Fin 4, (mean EI (signal X CW CB) n c * X (ix2 n ⟨f.val, by omega⟩)) * WO (ix2 o c)) + BO (ix1 o)) zeroF

/-- The result, the feature taken out of the sum over the cores. -/
def outFactored (n : Fin 50000) (f o : Fin 64) : EReal :=
  max (X (ix2 n ⟨f.val, by omega⟩) * (∑ c : Fin 4, mean EI (signal X CW CB) n c * WO (ix2 o c)) + BO (ix1 o)) zeroF

end Cert.GraphMean

end
-- ==== Proof.RefValue.lean ====
/-
  The reference's result, entry by entry, is the specification's.

  The reference computes the node signals by one matrix product against the transposed core weights, takes each edge's
  source row (negative indices wrapped, then clamped by the gather), sums the gathered rows and a vector of ones into
  the target nodes by two accumulating scatters, divides, and contracts the per-core messages `mean · x` against the
  output map.  Read at `(n, f, o)` this is `GraphMean.out`: each layout operation reads its operand at the evident
  index, the two scatters are sums over the edges whose target is `n`, and the last contraction is the sum over the
  four cores.
-/
import proofs.«162915_j39204461478459_2_alg».proof.Proof.RefRead
import proofs.«162915_j39204461478459_2_alg».proof.Proof.LibScatter
import proofs.«162915_j39204461478459_2_alg».proof.Proof.Spec

set_option maxRecDepth 16384

noncomputable section

namespace Cert.ReferenceIdeal.RefValue

open Cert.ReferenceIdeal Cert.ReferenceIdeal.Gen Cert.ReferenceIdeal.ReadP Idealize.ShloMosaic Idealize.ShloMosaic.ValueIdx

/-- The gather's start-index column at edge `e`: the edge's normalised source word. -/
theorem src_col (x1 : IVec S2x1600000 32) (e : Fin 1600000) :
    val_main_v15 (F := Ideal) x1 (ix2 e (0 : Fin 1)) = Cert.GraphMean.srcWord x1 e := by
  have h : idx_main_v0 (idx_main_v1 (idx_main_v15 (ix2 e (0 : Fin 1)))) = ix2 (0 : Fin 2) e :=
    funext fun a => Fin.ext (by
      match a with
      | ⟨0, _⟩ => rfl
      | ⟨1, _⟩ => exact Nat.mod_eq_of_lt e.isLt)
  rw [val_main_v15_apply, val_main_v14_apply, val_main_v11_apply, val_main_v13_apply, val_main_v10_apply,
    val_main_v12_apply, val_main_c_apply, val_main_c_0_apply, val_main_v1_apply, val_main_v0_apply, h]
  rfl

/-- The scatters' index column at edge `e`: the edge's target word. -/
theorem tgt_col (x1 : IVec S2x1600000 32) (e : Fin 1600000) :
    val_main_v18 (F := Ideal) x1 (ix2 e (0 : Fin 1)) = x1 (ix2 (1 : Fin 2) e) := by
  have h : idx_main_v2 (idx_main_v3 (idx_main_v18 (ix2 e (0 : Fin 1)))) = ix2 (1 : Fin 2) e :=
    funext fun a => Fin.ext (by
      match a with
      | ⟨0, _⟩ => rfl
      | ⟨1, _⟩ => exact Nat.mod_eq_of_lt e.isLt)
  rw [val_main_v18_apply, val_main_v3_apply, val_main_v2_apply, h]

/-- The signal table at node `n`, core `c`. -/
theorem signal_eq (x0 : FVec Ideal S50000x512 .f32) (x2 : FVec Ideal S4x512 .f32) (x3 : FVec Ideal S4 .f32)
    (n : Fin 50000) (c : Fin 4) :
    val_main_v9 (F := Ideal) x0 x2 x3 (ix2 n c) = Cert.GraphMean.signal x0 x2 x3 n c := by
  have hl : ∀ k : Fin 512, lidx_main_v5 (ix2 n c) k = ix2 n k := fun k =>
    funext fun a => Fin.ext (by
      match a with
      | ⟨0, _⟩ => rfl
      | ⟨1, _⟩ => rfl)
  have hr : ∀ k : Fin 512, idx_main_v4 (ridx_main_v5 (ix2 n c) k) = ix2 c k := fun k =>
    funext fun a => Fin.ext (by
      match a with
      | ⟨0, _⟩ => rfl
      | ⟨1, _⟩ => rfl)
  have hb : idx_main_v6 (idx_main_v7 (ix2 n c)) = ix1 c :=
    funext fun a => Fin.ext (by
      match a with
      | ⟨0, _⟩ => rfl)
  rw [val_main_v9_apply, val_main_v8_apply, val_main_v5_apply, val_main_v7_apply, val_main_v6_apply, hb]
  simp only [val_main_v4_apply, hl, hr]
  rfl

/-- The second index column is the first's: the same operation of the same operand. -/
theorem tgt_col' (x1 : IVec S2x1600000 32) (e : Fin 1600000) :
    val_main_v22 (F := Ideal) x1 (ix2 e (0 : Fin 1)) = x1 (ix2 (1 : Fin 2) e) :=
  tgt_col x1 e

/-- The count vector at node `n`: the scatter of ones. -/
theorem count_eq (x1 : IVec S2x1600000 32) (n : Fin 50000) :
    val_main_v23 (F := Ideal) x1 (ix1 n) = Cert.GraphMean.count x1 n := by
  unfold val_main_v23
  refine (Cert.LibScatter.vecScatterAdd_apply (N := 50000) (R := 1600000) (w := 32)
    Facts₀.scatter_S50000_S1600000x1_S1600000_n_0_0_1_wf _ _ _ n).trans ?_
  simp only [tgt_col', val_main_v21_apply, val_main_cst_2_apply, val_main_v20_apply, val_main_cst_1_apply]
  rfl

/-- The gathered table at edge `e`, core `c`: the signal at the edge's source row. -/
theorem gathered_eq (x0 : FVec Ideal S50000x512 .f32) (x1 : IVec S2x1600000 32) (x2 : FVec Ideal S4x512 .f32)
    (x3 : FVec Ideal S4 .f32) (e : Fin 1600000) (c : Fin 4) :
    val_main_v16 (F := Ideal) x0 x1 x2 x3 (ix2 e c)
      = Cert.GraphMean.signal x0 x2 x3 (Cert.GraphMean.row x1 e) c := by
  unfold val_main_v16
  refine (Cert.LibScatter.rowGather_apply (N := 50000) (R := 1600000) (C := 4) (w := 32) (by norm_num)
    Facts₀.gather_S50000x4_S1600000x1_S1600000x4_1_0_n_n_0_1_14_wf _ _ e c).trans ?_
  have hrow : (⟨min (val_main_v15 (F := Ideal) x1 (ix2 e (0 : Fin 1))).toInt.toNat (50000 - 1), by omega⟩ : Fin 50000)
      = Cert.GraphMean.row x1 e := by
    refine Fin.ext ?_
    show min (val_main_v15 (F := Ideal) x1 (ix2 e (0 : Fin 1))).toInt.toNat (50000 - 1)
      = min (Cert.GraphMean.srcWord x1 e).toInt.toNat (50000 - 1)
    rw [src_col]
  rw [hrow]
  exact signal_eq x0 x2 x3 (Cert.GraphMean.row x1 e) c

/-- The total table at node `n`, core `c`: the scatter of the gathered rows. -/
theorem total_eq (x0 : FVec Ideal S50000x512 .f32) (x1 : IVec S2x1600000 32) (x2 : FVec Ideal S4x512 .f32)
    (x3 : FVec Ideal S4 .f32) (n : Fin 50000) (c : Fin 4) :
    val_main_v19 (F := Ideal) x0 x1 x2 x3 (ix2 n c)
      = Cert.GraphMean.total x1 (Cert.GraphMean.signal x0 x2 x3) n c := by
  unfold val_main_v19
  refine (Cert.LibScatter.rowScatterAdd_apply (N := 50000) (R := 1600000) (C := 4) (w := 32)
    Facts₀.scatter_S50000x4_S1600000x1_S1600000x4_1_0_0_1_wf _ _ _ n c).trans ?_
  simp only [tgt_col, gathered_eq, val_main_v17_apply, val_main_cst_apply]
  rfl

/-- The mean table at node `n`, core `c`. -/
theorem mean_eq (x0 : FVec Ideal S50000x512 .f32) (x1 : IVec S2x1600000 32) (x2 : FVec Ideal S4x512 .f32)
    (x3 : FVec Ideal S4 .f32) (n : Fin 50000) (c : Fin 4) :
    val_main_v32 (F := Ideal) x0 x1 x2 x3 (ix2 n c)
      = Cert.GraphMean.mean x1 (Cert.GraphMean.signal x0 x2 x3) n c := by
  have hc1 : idx_main_v24 (idx_main_call0_v1 (ix2 n c)) = ix1 n :=
    funext fun a => Fin.ext (by
      match a with
      | ⟨0, _⟩ => rfl)
  have hc2 : idx_main_v29 (idx_main_v30 (ix2 n c)) = ix1 n :=
    funext fun a => Fin.ext (by
      match a with
      | ⟨0, _⟩ => rfl)
  rw [val_main_v32_apply, val_main_call0_v1_apply, val_main_v26_apply, val_main_v24_apply, val_main_v25_apply,
    val_main_cst_3_apply, val_main_v31_apply, val_main_v30_apply, val_main_v29_apply, val_main_v28_apply,
    val_main_v27_apply, val_main_cst_4_apply, val_main_call0_v2_apply, val_main_call0_v0_apply, val_main_cst_5_apply,
    hc1, hc2, count_eq, total_eq]
  rfl

/-- The reference's result at node `n`, feature `f`, channel `o`. -/
theorem ref_value (x0 : FVec Ideal S50000x512 .f32) (x1 : IVec S2x1600000 32) (x2 : FVec Ideal S4x512 .f32)
    (x3 : FVec Ideal S4 .f32) (x4 : FVec Ideal S64x4 .f32) (x5 : FVec Ideal S64 .f32)
    (n : Fin 50000) (f o : Fin 64) :
    val_main_v43 (F := Ideal) x0 x1 x2 x3 x4 x5 (ix3 n f o) = Cert.GraphMean.out x0 x1 x2 x3 x4 x5 n f o := by
  have h1 : ∀ k : Fin 4, idx_main_v33 (idx_main_v36 (lidx_main_v39 (ix3 n f o) k)) = ix2 n k := fun k =>
    funext fun a => Fin.ext (by
      match a with
      | ⟨0, _⟩ => rfl
      | ⟨1, _⟩ => rfl)
  have h2 : ∀ k : Fin 4, idx_main_v34 (idx_main_v35 (idx_main_v37 (lidx_main_v39 (ix3 n f o) k)))
      = ix2 n (⟨f.val, by omega⟩ : Fin 512) := fun k =>
    funext fun a => Fin.ext (by
      match a with
      | ⟨0, _⟩ => rfl
      | ⟨1, _⟩ => rfl)
  have h3 : ∀ k : Fin 4, ridx_main_v39 (ix3 n f o) k = ix2 o k := fun k =>
    funext fun a => Fin.ext (by
      match a with
      | ⟨0, _⟩ => rfl
      | ⟨1, _⟩ => rfl)
  have h4 : idx_main_v40 (idx_main_v41 (ix3 n f o)) = ix1 o :=
    funext fun a => Fin.ext (by
      match a with
      | ⟨0, _⟩ => rfl)
  rw [val_main_v43_apply, val_main_v42_apply, val_main_v39_apply, val_main_v41_apply, val_main_v40_apply,
    val_main_call1_v0_apply, val_main_call1_cst_apply, h4]
  have hs : ∀ k : Fin 4,
      val_main_v38 (F := Ideal) x0 x1 x2 x3 (lidx_main_v39 (ix3 n f o) k) * x4 (ridx_main_v39 (ix3 n f o) k)
        = (Cert.GraphMean.mean x1 (Cert.GraphMean.signal x0 x2 x3) n k * x0 (ix2 n (⟨f.val, by omega⟩ : Fin 512)))
            * x4 (ix2 o k) := by
    intro k
    rw [val_main_v38_apply, val_main_v36_apply, val_main_v33_apply, val_main_v37_apply, val_main_v35_apply,
      val_main_v34_apply, h1 k, h2 k, h3 k, mean_eq, Ideal.mulf_def]
  rw [Finset.sum_congr rfl (fun k _ => hs k)]
  unfold Cert.GraphMean.out
  rw [Ideal.maximumf_def, Ideal.addf_def, Ideal.ofBits_def]

end Cert.ReferenceIdeal.RefValue

end
-- ==== Proof.KernelRun.lean ====
/-
  The idealized kernel's run, with its result named.

  @main is five segments: the first pallas_call (the node signals and the narrow copy of the features), two stretches
  of host operations (the means over the in-edges), the second pallas_call (the outer products), and a final reshape.
  Every weakly fair execution terminates, without a fault, in a state where every buffer that outlives the run holds
  the contents the segments' fold leaves at the last boundary; in particular the result array holds that fold's value
  at the result's buffer, and the six argument arrays are as launched.
-/
import proofs.«162915_j39204461478459_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents of its buffer, the arguments as launched. -/
theorem run_value : θ_run defs (onTc (τ := τ) (main (F := F))) ⟨m, fun _ => 0, ρ⟩ (fun r => ∀ c : Dev nD,
      r.2.mem ((c.tc : Thread nD τ).loc main_v31) = W5 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v31 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.RunValue

end
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibRows.lean ====
/-
  A row vector laid along the rows of a matrix, in the two spellings a kernel and a host program give it.

  A vector `x` of `n` entries becomes the one-row matrix `y` with `y (0, j) = x j` either by a reshape or by a
  broadcast along axis 1: the two are one function (`shapeCast_row_eq_broadcastInDim`).  A one-row matrix `y` is laid
  down `m` rows, `(r, j) ↦ y (0, j)`, either by a broadcast of the vector (preceded by a cast of the one-row matrix to
  its own shape) or by a broadcast along both axes: again one function (`broadcastTo_oneRow_eq_broadcastInDim`).
-/
import Idealize.ShloMosaic.Lib.Pipeline.Value
import Idealize.ShloMosaic.Lib.ValueIdx
import Idealize.ShloMosaic.Lib.KernelVsHost

namespace Cert.LibRows

open Idealize.ShloMosaic Idealize.ShloMosaic.ValueIdx

variable {α : Type}

/-- A vector read as a one-row matrix: the reshape `[n] → [1, n]` and the broadcast along axis 1 both put entry `j`
    at `(0, j)`. -/
theorem shapeCast_row_eq_broadcastInDim {n : Nat} (x : (⟨1, ![n]⟩ : Shape).Idx → α)
    (h1 : (⟨1, ![n]⟩ : Shape).ShapeCasts ⟨2, ![1, n]⟩)
    (hd : (⟨1, ![n]⟩ : Shape).BroadcastsInDim ⟨2, ![1, n]⟩ ![1]) :
    shapeCast ⟨2, ![1, n]⟩ x h1 = broadcastInDim ⟨2, ![1, n]⟩ ![1] hd x := by
  funext i
  have h0 : (i 0).val < 1 := (i 0).isLt
  have e2 := shapeCast_apply x h1 i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · have e : (i 1).val < n := (i 1).isLt; omega
      · rfl)
  exact e2.trans e3.symm

/-- The kernel's broadcast of a one-row matrix (cast to its own shape first) down `m` rows, read at `(r, j)`: the
    row's entry `(0, j)`. -/
theorem broadcastTo_oneRow_apply {m n : Nat} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ y hs) hb (ix2 p q) = y (ix2 (0 : Fin 1) q) := by
  rw [shapeCast_self]
  refine broadcastTo_apply y hb _ (ix2 (0 : Fin 1) q) ?_
  intro a
  match a with
  | ⟨0, _⟩ => rfl
  | ⟨1, _⟩ =>
    show q.val = if n = 1 then 0 else q.val
    split
    · have e : q.val < n := q.isLt; omega
    · rfl

/-- A one-row matrix laid down `m` rows: the kernel's broadcast of its same-shape cast is the host's broadcast along
    both axes; at `(r, j)` both read `y (0, j)`. -/
theorem broadcastTo_oneRow_eq_broadcastInDim {m n : Nat} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ (shapeCast ⟨2, ![1, n]⟩ y hs) hb = broadcastInDim ⟨2, ![m, n]⟩ ![0, 1] hd y := by
  funext i
  obtain ⟨p, q, rfl⟩ : ∃ (p : Fin m) (q : Fin n), i = ix2 p q := ⟨i 0, i 1, eq_ix2 i⟩
  rw [broadcastInDim_oneRow_apply, broadcastTo_oneRow_apply]

end Cert.LibRows
-- ==== Proof.SignalBlock.lean ====
/-
  What one grid point of the first pallas_call leaves in its two output blocks, entry by entry, over the extended reals.

  The point reads a block `x` of 5000 node rows (512 features), the four cores' weights `w` (4 × 512) and biases `b`.
  Its first output block (5000 × 8) holds in lanes 0–3 the signal `tanh (Σ_k x[r,k] · w[c,k] + b[c])` — the product is
  taken after a change of float format, which is the identity here, against the transposed weights, into a zero
  accumulator — and zeros in lanes 4–7; its second output block (5000 × 64) is the first 64 features of each row.
-/
import proofs.«162915_j39204461478459_2_alg».proof.Proof.Gen.KernelIdeal.Frame
import proofs.«162915_j39204461478459_2_alg».proof.Proof.LibDotIdx
import proofs.«162915_j39204461478459_2_alg».proof.Proof.LibRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.SignalBlock

open Cert.KernelIdeal Cert.KernelIdeal.Gen Idealize.ShloMosaic Idealize.ShloMosaic.ValueIdx

/-- The bias laid down the rows: the vector read as a one-row matrix, then repeated down 5000 rows, reads the
    bias of its column. -/
theorem bias_apply (x2 : Vec Ideal S4 .f32) (p : Fin 5000) (q : Fin 4) :
    broadcastTo S5000x4 (shapeCast S1x4 x2 shapeCasts_S4_S1x4) broadcasts_S1x4_S5000x4 (ix2 p q) = x2 (ix1 q) := by
  refine (broadcastTo_apply _ broadcasts_S1x4_S5000x4 (ix2 p q) (ix2 (0 : Fin 1) q) ?_).trans ?_
  · intro a
    match a with
    | ⟨0, _⟩ => rfl
    | ⟨1, _⟩ => rfl
  · refine shapeCast_apply x2 shapeCasts_S4_S1x4 (ix2 (0 : Fin 1) q) (ix1 q) ?_
    rw [Shape.rowMajor_val_two, Shape.rowMajor_val_one]
    show q.val = 0 * 4 + q.val
    omega

/-- The transposed weights at `(k, c)` are the weights at `(c, k)`; the change of float format is the identity. -/
theorem weightsT_apply (x1 : Vec Ideal S4x512 .f32) (k : Fin 512) (q : Fin 4) :
    transpose S512x4 [1, 0] (truncf .bf16 x1 bitsLt_bf16_f32 : FVec Ideal S4x512 .bf16)
      transposes_S4x512_p1_0_S512x4 (ix2 k q) = x1 (ix2 q k) := by
  refine (transpose_apply [1, 0] _ transposes_S4x512_p1_0_S512x4 (ix2 k q) (ix2 q k) ?_).trans rfl
  intro b
  match b with
  | ⟨0, _⟩ => rfl
  | ⟨1, _⟩ => rfl

/-- The product into the zero accumulator at `(p, q)`: row `p` of the block against row `q` of the weights. -/
theorem prod_apply (x0 : Vec Ideal S5000x512 .f32) (x1 : Vec Ideal S4x512 .f32) (p : Fin 5000) (q : Fin 4) :
    matmul dot_S5000x512_S512x4_S5000x4_1_0_0_1_n_n none
        (truncf .bf16 x0 bitsLt_bf16_f32 : FVec Ideal S5000x512 .bf16)
        (transpose S512x4 [1, 0] (truncf .bf16 x1 bitsLt_bf16_f32 : FVec Ideal S4x512 .bf16)
          transposes_S4x512_p1_0_S512x4)
        (constant S5000x4 .f32 0x00000000#32) (ix2 p q)
      = ∑ k : Fin 512, x0 (ix2 p k) * x1 (ix2 q k) := by
  refine (DotIdx.matmul_plain_zero_apply _ none _ _ p q).trans ?_
  refine Finset.sum_congr rfl fun k _ => ?_
  exact congrArg (fun t => x0 (ix2 p k) * t) (weightsT_apply x1 k q)

/-- The signal payload at `(p, q)`. -/
theorem pay1_apply (x0 : Vec Ideal S5000x512 .f32) (x1 : Vec Ideal S4x512 .f32) (x2 : Vec Ideal S4 .f32)
    (p : Fin 5000) (q : Fin 4) :
    k0_pay1 (F := Ideal) x0 x1 x2 (ix2 p q)
      = Ideal.tanh ((∑ k : Fin 512, x0 (ix2 p k) * x1 (ix2 q k)) + x2 (ix1 q)) := by
  unfold k0_pay1
  exact congrArg Ideal.tanh (congrArg₂ (· + ·) (prod_apply x0 x1 p q) (bias_apply x2 p q))

/-- The block's entry as a function of its row and lane. -/
def blockEntry (x0 : Vec Ideal S5000x512 .f32) (x1 : Vec Ideal S4x512 .f32) (x2 : Vec Ideal S4 .f32)
    (r : Fin 5000) (l : Fin 8) : Ideal .f32 :=
  if h : l.val < 4 then
    Ideal.tanh ((∑ k : Fin 512, x0 (ix2 r k) * x1 (ix2 (⟨l.val, h⟩ : Fin 4) k)) + x2 (ix1 (⟨l.val, h⟩ : Fin 4)))
  else Ideal.ofBits .f32 0x00000000#32

/-- The rectangle of lanes 0–3 places `(p, q)` at `(p, q)`. -/
theorem emb3 (p : Fin 5000) (q : Fin 4) : r0_3.emb (ix2 p q) = ix2 p (⟨q.val, by omega⟩ : Fin 8) := by
  funext a; apply Fin.ext
  match a with
  | ⟨0, _⟩ => show 0 + 1 * p.val = p.val; omega
  | ⟨1, _⟩ => show 0 + 1 * q.val = q.val; omega

/-- The rectangle of lanes 4–7 places `(p, q)` at `(p, q + 4)`. -/
theorem emb4 (p : Fin 5000) (q : Fin 4) : r0_4.emb (ix2 p q) = ix2 p (⟨q.val + 4, by omega⟩ : Fin 8) := by
  funext a; apply Fin.ext
  match a with
  | ⟨0, _⟩ => show 0 + 1 * p.val = p.val; omega
  | ⟨1, _⟩ => show 4 + 1 * q.val = q.val + 4; omega

/-- The signal store's payload is the block's entry under its rectangle. -/
theorem piece3 (x0 : Vec Ideal S5000x512 .f32) (x1 : Vec Ideal S4x512 .f32) (x2 : Vec Ideal S4 .f32)
    (x : r0_3.shape.Idx) :
    k0_pay1 (F := Ideal) x0 x1 x2 x = blockEntry x0 x1 x2 (r0_3.emb x 0) (r0_3.emb x 1) := by
  obtain ⟨p, q, rfl⟩ : ∃ (p : Fin 5000) (q : Fin 4), x = ix2 p q := ⟨x 0, x 1, eq_ix2 x⟩
  rw [emb3, pay1_apply]
  show _ = blockEntry x0 x1 x2 p (⟨q.val, by omega⟩ : Fin 8)
  unfold blockEntry
  rw [dif_pos (show ((⟨q.val, by omega⟩ : Fin 8)).val < 4 from q.isLt)]

/-- The zero store's payload is the block's entry under its rectangle. -/
theorem piece4 (x0 : Vec Ideal S5000x512 .f32) (x1 : Vec Ideal S4x512 .f32) (x2 : Vec Ideal S4 .f32)
    (x : r0_4.shape.Idx) :
    k0_pay2 (F := Ideal) x = blockEntry x0 x1 x2 (r0_4.emb x 0) (r0_4.emb x 1) := by
  obtain ⟨p, q, rfl⟩ : ∃ (p : Fin 5000) (q : Fin 4), x = ix2 p q := ⟨x 0, x 1, eq_ix2 x⟩
  rw [emb4]
  show _ = blockEntry x0 x1 x2 p (⟨q.val + 4, by omega⟩ : Fin 8)
  unfold blockEntry
  rw [dif_neg (show ¬ ((⟨q.val + 4, by omega⟩ : Fin 8)).val < 4 from by show ¬ (q.val + 4 < 4); omega)]
  rfl

/-- The first output block at row `r`, lane `l`: the signal in the first four lanes, zero in the rest. -/
theorem out0_3_apply (x0 : Vec Ideal S5000x512 .f32) (x1 : Vec Ideal S4x512 .f32) (x2 : Vec Ideal S4 .f32)
    (r : Fin 5000) (l : Fin 8) :
    out0_3 (F := Ideal) x0 x1 x2 (ix2 r l)
      = if h : l.val < 4 then
          Ideal.tanh ((∑ k : Fin 512, x0 (ix2 r k) * x1 (ix2 (⟨l.val, h⟩ : Fin 4) k)) + x2 (ix1 (⟨l.val, h⟩ : Fin 4)))
        else Ideal.ofBits .f32 0x00000000#32 := by
  have h0 : (![0, 0] : Fin 2 → Nat) = fun _ => 0 := by funext a; fin_cases a <;> rfl
  have h1 : (![0] : Fin 1 → Nat) = fun _ => 0 := by funext a; fin_cases a; rfl
  have e0 : View.ld x0 r0_0 = x0 := View.ld_unit_zero h0 _ _
  have e1 : View.ld x1 r0_1 = x1 := View.ld_unit_zero h0 _ _
  have e2 : View.ld x2 r0_2 = x2 := View.ld_unit_zero h1 _ _
  unfold out0_3
  rw [e0, e1, e2]
  refine (View.canon_apply_of_pieces (fun y : S5000x8.Idx => blockEntry x0 x1 x2 (y 0) (y 1)) _ ?_ (ix2 r l)
    (cover0_3 _ _ _)).trans ?_
  · intro pc hpc
    rcases List.mem_cons.mp hpc with rfl | hpc
    · exact piece4 x0 x1 x2
    · rcases List.mem_singleton.mp hpc with rfl
      exact piece3 x0 x1 x2
  · rfl

/-- The second output block at row `r`, column `f`: the block's feature `f`. -/
theorem out0_4_apply (x0 : Vec Ideal S5000x512 .f32) (x1 : Vec Ideal S4x512 .f32) (x2 : Vec Ideal S4 .f32)
    (r : Fin 5000) (f : Fin 64) :
    out0_4 (F := Ideal) x0 x1 x2 (ix2 r f) = x0 (ix2 r (⟨f.val, by omega⟩ : Fin 512)) := by
  have h0 : (![0, 0] : Fin 2 → Nat) = fun _ => 0 := by funext a; fin_cases a <;> rfl
  have e1 : out0_4 (F := Ideal) x0 x1 x2 = k0_pay3 (View.ld x0 r0_0) := View.canon_unit_zero h0 _ _
  have e2 : View.ld x0 r0_0 = x0 := View.ld_unit_zero h0 _ _
  rw [e1, e2]
  unfold k0_pay3
  refine extractStridedSlice_apply _ x0 _ (ix2 r f) (ix2 r (⟨f.val, by omega⟩ : Fin 512)) ?_
  intro a
  match a with
  | ⟨0, _⟩ => show r.val = 0 + r.val; omega
  | ⟨1, _⟩ => show f.val = 0 + f.val; omega

end Cert.KernelIdeal.SignalBlock

end
-- ==== Proof.SignalArrays.lean ====
/-
  The first pallas_call's two output arrays after all ten grid points, as whole-array functions of the arrays it found.

  Point `t` reads node rows `5000 t … 5000 t + 4999` of the features and writes the same rows of both outputs; the
  weights and biases are read whole at every point.  So the blocks written back are the restrictions of ONE function
  of the array index — the padded signal table, and the first 64 feature columns — and the ten blocks tile the 50000
  rows: the arrays end holding those functions.
-/
import proofs.«162915_j39204461478459_2_alg».proof.Proof.Gen.KernelIdeal.Frame
import proofs.«162915_j39204461478459_2_alg».proof.Proof.SignalBlock
import Idealize.ShloMosaic.Lib.Pipeline.Value
import Idealize.ShloMosaic.Lib.ValueIdx

set_option maxRecDepth 16384

noncomputable section

namespace Cert.KernelIdeal.SignalArrays

open Cert.KernelIdeal Cert.KernelIdeal.Gen Idealize.ShloMosaic Idealize.ShloMosaic.TcCoe Idealize.ShloMosaic.ValueIdx
open Idealize.SL.Sem
open Idealize.ShloMosaic.Pipeline (Dat)

/-- The padded signal table at node `n`, lane `l`: the signal in lanes 0–3, zero in lanes 4–7. -/
def spadAt (X : S50000x512.Idx → EReal) (CW : S4x512.Idx → EReal) (CB : S4.Idx → EReal) (n : Fin 50000) (l : Fin 8) : EReal :=
  if h : l.val < 4 then
    Ideal.tanh ((∑ k : Fin 512, X (ix2 n k) * CW (ix2 (⟨l.val, h⟩ : Fin 4) k)) + CB (ix1 (⟨l.val, h⟩ : Fin 4)))
  else Ideal.ofBits .f32 0x00000000#32

/-- The padded signal table as an array. -/
def spad (X : S50000x512.Idx → EReal) (CW : S4x512.Idx → EReal) (CB : S4.Idx → EReal) : S50000x8.Idx → EReal :=
  fun i => spadAt X CW CB (i 0) (i 1)

/-- The first 64 feature columns as an array. -/
def xsmall (X : S50000x512.Idx → EReal) : S50000x64.Idx → EReal :=
  fun i => X (ix2 (i 0) (⟨(i 1).val, by have h : (i 1).val < 64 := (i 1).isLt; omega⟩ : Fin 512))

variable (V : (c : Dev nD) → (b : Ref sig .tc) → Buf (Elt Ideal) ((c : Thread nD τ).loc b))

/-- The printed index maps over the ten points: the row-blocked windows are at block `t`, the others at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem lt_ten (t : Fin cfg0.N) : t.val < 10 := by
  have h : t.val < grid0.N := t.isLt
  rw [N_0] at h; exact h

/-! ## The input blocks at a point -/

theorem blk_x (c : Dev nD) (t : Fin cfg0.N) (e0 : win0_0.index t (0 : Fin 2) = t.val) (e1 : win0_0.index t (1 : Fin 2) = 0)
    (ht : t.val < 10) (p : Fin 5000) (k : Fin 512) :
    iblk0 V c 0 t (ix2 p k) = V c main_arg0 (ix2 (⟨t.val * 5000 + p.val, by omega⟩ : Fin 50000) k) := by
  show V c main_arg0 (((cfg0.win 0).blk t).view.emb (ix2 p k)) = _
  refine congrArg (V c main_arg0) ?_
  funext a; apply Fin.ext
  match a with
  | ⟨0, _⟩ => show win0_0.index t (0 : Fin 2) * 5000 + 1 * p.val = t.val * 5000 + p.val; omega
  | ⟨1, _⟩ => show win0_0.index t (1 : Fin 2) * 512 + 1 * k.val = k.val; omega

theorem blk_w (c : Dev nD) (t : Fin cfg0.N) (e0 : win0_1.index t (0 : Fin 2) = 0) (e1 : win0_1.index t (1 : Fin 2) = 0)
    (q : Fin 4) (k : Fin 512) :
    iblk0 V c 1 t (ix2 q k) = V c main_arg2 (ix2 q k) := by
  show V c main_arg2 (((cfg0.win 1).blk t).view.emb (ix2 q k)) = _
  refine congrArg (V c main_arg2) ?_
  funext a; apply Fin.ext
  match a with
  | ⟨0, _⟩ => show win0_1.index t (0 : Fin 2) * 4 + 1 * q.val = q.val; omega
  | ⟨1, _⟩ => show win0_1.index t (1 : Fin 2) * 512 + 1 * k.val = k.val; omega

theorem blk_b (c : Dev nD) (t : Fin cfg0.N) (e0 : win0_2.index t (0 : Fin 1) = 0) (q : Fin 4) :
    iblk0 V c 2 t (ix1 q) = V c main_arg3 (ix1 q) := by
  show V c main_arg3 (((cfg0.win 2).blk t).view.emb (ix1 q)) = _
  refine congrArg (V c main_arg3) ?_
  funext a; apply Fin.ext
  match a with
  | ⟨0, _⟩ => show win0_2.index t (0 : Fin 1) * 4 + 1 * q.val = q.val; omega

/-! ## What a point writes back -/

/-- Point `t`'s first output block is block `t` of the padded signal table. -/
theorem flushed3_eq (c : Dev nD) (t : Fin cfg0.N) :
    (dat0 V c).flushed 3 t
      = ((cfg0.win 3).blk t).view.read (Elt Ideal) (spad (V c main_arg0) (V c main_arg2) (V c main_arg3)) := by
  show (cfg0.win 3).cut (grid0.coords t) ((dat0 V c).after 3 t) = _
  rw [after0_3]
  obtain ⟨e00, e01, e10, e11, e20, e30, e31, e40, e41⟩ := idx_facts t
  have ht := lt_ten t
  funext j
  have hj0 : (j 0).val < 5000 := (j 0).isLt
  have hj1 : (j 1).val < 8 := (j 1).isLt
  have hjj : j = ix2 (⟨(j 0).val, hj0⟩ : Fin 5000) (⟨(j 1).val, hj1⟩ : Fin 8) := by
    funext a; match a with | ⟨0, _⟩ => rfl | ⟨1, _⟩ => rfl
  generalize (⟨(j 0).val, hj0⟩ : Fin 5000) = p at hjj
  generalize (⟨(j 1).val, hj1⟩ : Fin 8) = q at hjj
  subst hjj
  have hemb : ((cfg0.win 3).blk t).view.emb (ix2 p q) = ix2 (⟨t.val * 5000 + p.val, by omega⟩ : Fin 50000) q := by
    funext a; apply Fin.ext
    match a with
    | ⟨0, _⟩ => show win0_3.index t (0 : Fin 2) * 5000 + 1 * p.val = t.val * 5000 + p.val; omega
    | ⟨1, _⟩ => show win0_3.index t (1 : Fin 2) * 8 + 1 * q.val = q.val; omega
  show out0_3 (iblk0 V c 0 t) (iblk0 V c 1 t) (iblk0 V c 2 t) (ix2 p q)
    = spad (V c main_arg0) (V c main_arg2) (V c main_arg3) (((cfg0.win 3).blk t).view.emb (ix2 p q))
  rw [hemb]
  refine (SignalBlock.out0_3_apply (iblk0 V c 0 t) (iblk0 V c 1 t) (iblk0 V c 2 t) p q).trans ?_
  show _ = spadAt (V c main_arg0) (V c main_arg2) (V c main_arg3) (⟨t.val * 5000 + p.val, by omega⟩ : Fin 50000) q
  unfold spadAt
  by_cases h : q.val < 4
  · rw [dif_pos h, dif_pos h, blk_b V c t e20]
    simp only [blk_x V c t e00 e01 ht, blk_w V c t e10 e11]
  · rw [dif_neg h, dif_neg h]

/-- Point `t`'s second output block is block `t` of the first 64 feature columns. -/
theorem flushed4_eq (c : Dev nD) (t : Fin cfg0.N) :
    (dat0 V c).flushed 4 t = ((cfg0.win 4).blk t).view.read (Elt Ideal) (xsmall (V c main_arg0)) := by
  show (cfg0.win 4).cut (grid0.coords t) ((dat0 V c).after 4 t) = _
  rw [after0_4]
  obtain ⟨e00, e01, e10, e11, e20, e30, e31, e40, e41⟩ := idx_facts t
  have ht := lt_ten t
  funext j
  have hj0 : (j 0).val < 5000 := (j 0).isLt
  have hj1 : (j 1).val < 64 := (j 1).isLt
  have hjj : j = ix2 (⟨(j 0).val, hj0⟩ : Fin 5000) (⟨(j 1).val, hj1⟩ : Fin 64) := by
    funext a; match a with | ⟨0, _⟩ => rfl | ⟨1, _⟩ => rfl
  generalize (⟨(j 0).val, hj0⟩ : Fin 5000) = p at hjj
  generalize (⟨(j 1).val, hj1⟩ : Fin 64) = q at hjj
  subst hjj
  have hemb : ((cfg0.win 4).blk t).view.emb (ix2 p q) = ix2 (⟨t.val * 5000 + p.val, by omega⟩ : Fin 50000) q := by
    funext a; apply Fin.ext
    match a with
    | ⟨0, _⟩ => show win0_4.index t (0 : Fin 2) * 5000 + 1 * p.val = t.val * 5000 + p.val; omega
    | ⟨1, _⟩ => show win0_4.index t (1 : Fin 2) * 64 + 1 * q.val = q.val; omega
  show out0_4 (iblk0 V c 0 t) (iblk0 V c 1 t) (iblk0 V c 2 t) (ix2 p q)
    = xsmall (V c main_arg0) (((cfg0.win 4).blk t).view.emb (ix2 p q))
  rw [hemb]
  refine (SignalBlock.out0_4_apply (iblk0 V c 0 t) (iblk0 V c 1 t) (iblk0 V c 2 t) p q).trans ?_
  exact blk_x V c t e00 e01 ht p _

/-! ## The blocks tile the rows -/

theorem mem_blk3 (t : Fin cfg0.N) (i : S50000x8.Idx) :
    i ∈ ((cfg0.win 3).blk t).view.set
      ↔ ∀ a : Fin 2, win0_3.index t a * S5000x8.size a ≤ (i a).val ∧ (i a).val < win0_3.index t a * S5000x8.size a + S5000x8.size a := by
  show i ∈ ((View.whole main_v0_0).slice (win0_3.rect t)).set ↔ _
  rw [View.set_slice_whole, Rect.mem_set_unit]
  exact Iff.rfl

theorem mem_blk4 (t : Fin cfg0.N) (i : S50000x64.Idx) :
    i ∈ ((cfg0.win 4).blk t).view.set
      ↔ ∀ a : Fin 2, win0_4.index t a * S5000x64.size a ≤ (i a).val ∧ (i a).val < win0_4.index t a * S5000x64.size a + S5000x64.size a := by
  show i ∈ ((View.whole main_v0_1).slice (win0_4.rect t)).set ↔ _
  rw [View.set_slice_whole, Rect.mem_set_unit]
  exact Iff.rfl

theorem cover3 (i : S50000x8.Idx) : ∃ t : Fin cfg0.N, (cfg0.win 3).flush t = true ∧ i ∈ ((cfg0.win 3).blk t).view.set := by
  have hi0 : (i 0).val < 50000 := (i 0).isLt
  have hi1 : (i 1).val < 8 := (i 1).isLt
  let t : Fin cfg0.N := ⟨(i 0).val / 5000, by show _ < grid0.N; rw [N_0]; omega⟩
  have htv : t.val = (i 0).val / 5000 := rfl
  obtain ⟨e00, e01, e10, e11, e20, e30, e31, e40, e41⟩ := idx_facts t
  refine ⟨t, flush0_3 t, ?_⟩
  rw [mem_blk3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 8 ≤ (i 1).val ∧ (i 1).val < win0_3.index t (1 : Fin 2) * 8 + 8; omega

theorem cover4 (i : S50000x64.Idx) : ∃ t : Fin cfg0.N, (cfg0.win 4).flush t = true ∧ i ∈ ((cfg0.win 4).blk t).view.set := by
  have hi0 : (i 0).val < 50000 := (i 0).isLt
  have hi1 : (i 1).val < 64 := (i 1).isLt
  let t : Fin cfg0.N := ⟨(i 0).val / 5000, by show _ < grid0.N; rw [N_0]; omega⟩
  have htv : t.val = (i 0).val / 5000 := rfl
  obtain ⟨e00, e01, e10, e11, e20, e30, e31, e40, e41⟩ := idx_facts t
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-! ## The arrays after the call -/

/-- The first output array ends holding the padded signal table of the arrays the call found. -/
theorem arr3 (c : Dev nD) :
    (dat0 V c).arrAt 3 cfg0.N = spad (V c main_arg0) (V c main_arg2) (V c main_arg3) :=
  (dat0 V c).arrAt_eq_of_cover 3 (spad (V c main_arg0) (V c main_arg2) (V c main_arg3))
    (fun t _ => flushed3_eq V c t) (cover3)

/-- The second output array ends holding the first 64 feature columns. -/
theorem arr4 (c : Dev nD) : (dat0 V c).arrAt 4 cfg0.N = xsmall (V c main_arg0) :=
  (dat0 V c).arrAt_eq_of_cover 4 (xsmall (V c main_arg0)) (fun t _ => flushed4_eq V c t) (cover4)

end Cert.KernelIdeal.SignalArrays

end
-- ==== Proof.AggBlock.lean ====
/-
  What one grid point of the second pallas_call leaves in its output block, entry by entry, over the extended reals.

  The point reads 1000 node rows of the narrow features `xs` (1000 × 64) and of the means `a` (1000 × 4), the output
  map `W` (64 × 4) and bias `b` (64).  Its output block is 1000 × 4096, written in eight column stretches of 512;
  column `f · 64 + o` of row `r` holds `max (xs[r,f] · (Σ_c a[r,c] · W[o,c]) + b[o]) 0`: stretch `j` is features
  `8j … 8j+7` against all 64 channels, flattened row-major, so the eight stretches are one formula in the column.
-/
import proofs.«162915_j39204461478459_2_alg».proof.Proof.Gen.KernelIdeal.Frame
import proofs.«162915_j39204461478459_2_alg».proof.Proof.LibDotIdx
import proofs.«162915_j39204461478459_2_alg».proof.Proof.LibRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AggBlock

open Cert.KernelIdeal Cert.KernelIdeal.Gen Idealize.ShloMosaic Idealize.ShloMosaic.ValueIdx

/-! ## One stretch of 512 columns

Eight feature columns `c0 … c0+7` of `v1`, each spread along the 64 channels, times the row of `v8` spread along the
eight features, plus `v12`, floored at `z`, then flattened row-major: local column `q` is feature `q / 64`, channel
`q % 64`. -/

/-- One stretch as a function of its feature offset `c0`. -/
def chunk (c0 : Nat) (hs : S1000x64.Slices ![0, c0] S1000x8) (v1 v8 : FVec Ideal S1000x64 .f32)
    (v12 : FVec Ideal S1000x8x64 .f32) (z : Ideal .f32) : FVec Ideal S1000x512 .f32 :=
  shapeCast S1000x512
    (maximumf
      (addf
        (mulf
          (broadcastTo S1000x8x64
            (shapeCast S1000x8x1 (extractStridedSlice S1000x8 ![0, c0] v1 hs) Facts₀.shapeCasts_S1000x8_S1000x8x1)
            Facts₀.broadcasts_S1000x8x1_S1000x8x64)
          (broadcastTo S1000x8x64 (shapeCast S1000x1x64 v8 Facts₀.shapeCasts_S1000x64_S1000x1x64)
            Facts₀.broadcasts_S1000x1x64_S1000x8x64))
        v12)
      (broadcast S1000x8x64 z))
    Facts₀.shapeCasts_S1000x8x64_S1000x512

/-- The sliced features spread along the channels: at `(r, g, o)`, feature `c0 + g` of row `r`. -/
theorem feat_apply (c0 : Nat) (hs : S1000x64.Slices ![0, c0] S1000x8) (v1 : FVec Ideal S1000x64 .f32)
    (r : Fin 1000) (g : Fin 8) (o f : Fin 64) (hf : f.val = c0 + g.val) :
    broadcastTo S1000x8x64
        (shapeCast S1000x8x1 (extractStridedSlice S1000x8 ![0, c0] v1 hs) Facts₀.shapeCasts_S1000x8_S1000x8x1)
        Facts₀.broadcasts_S1000x8x1_S1000x8x64 (ix3 r g o)
      = v1 (ix2 r f) := by
  refine (broadcastTo_apply _ _ (ix3 r g o) (ix3 r g (0 : Fin 1)) ?_).trans ?_
  · intro a
    match a with
    | ⟨0, _⟩ => rfl
    | ⟨1, _⟩ => rfl
    | ⟨2, _⟩ => rfl
  refine (shapeCast_apply _ _ (ix3 r g (0 : Fin 1)) (ix2 r g) ?_).trans ?_
  · rw [Shape.rowMajor_val_two, Shape.rowMajor_val_three]
    show r.val * 8 + g.val = (r.val * 8 + g.val) * 1 + 0
    omega
  refine extractStridedSlice_apply _ _ hs (ix2 r g) (ix2 r f) ?_
  intro a
  match a with
  | ⟨0, _⟩ => show r.val = 0 + r.val; omega
  | ⟨1, _⟩ => show f.val = c0 + g.val; exact hf

/-- A matrix of rows spread along the eight features: at `(r, g, o)`, entry `(r, o)`. -/
theorem chan_apply (v8 : FVec Ideal S1000x64 .f32) (r : Fin 1000) (g : Fin 8) (o : Fin 64) :
    broadcastTo S1000x8x64 (shapeCast S1000x1x64 v8 Facts₀.shapeCasts_S1000x64_S1000x1x64)
        Facts₀.broadcasts_S1000x1x64_S1000x8x64 (ix3 r g o)
      = v8 (ix2 r o) := by
  refine (broadcastTo_apply _ _ (ix3 r g o) (ix3 r (0 : Fin 1) o) ?_).trans ?_
  · intro a
    match a with
    | ⟨0, _⟩ => rfl
    | ⟨1, _⟩ => rfl
    | ⟨2, _⟩ => rfl
  refine shapeCast_apply _ _ (ix3 r (0 : Fin 1) o) (ix2 r o) ?_
  rw [Shape.rowMajor_val_two, Shape.rowMajor_val_three]
  show r.val * 64 + o.val = (r.val * 1 + 0) * 64 + o.val
  omega

/-- One stretch read at row `r`, local column `q = g · 64 + o`, with `f = c0 + g` the feature. -/
theorem chunk_apply (c0 : Nat) (hs : S1000x64.Slices ![0, c0] S1000x8) (v1 v8 : FVec Ideal S1000x64 .f32)
    (v12 : FVec Ideal S1000x8x64 .f32) (z : Ideal .f32) (r : Fin 1000) (q : Fin 512) (g : Fin 8) (o f : Fin 64)
    (hf : f.val = c0 + g.val) (hq : q.val = g.val * 64 + o.val) :
    chunk c0 hs v1 v8 v12 z (ix2 r q) = max (v1 (ix2 r f) * v8 (ix2 r o) + v12 (ix3 r g o)) z := by
  unfold chunk
  refine (shapeCast_apply _ _ (ix2 r q) (ix3 r g o) ?_).trans ?_
  · rw [Shape.rowMajor_val_two, Shape.rowMajor_val_three]
    show (r.val * 8 + g.val) * 64 + o.val = r.val * 512 + q.val
    omega
  rw [maximumf_apply, addf_apply, mulf_apply, broadcast_apply, feat_apply c0 hs v1 r g o f hf, chan_apply]

/-! ## The three shared values: features, the matrix product, the bias -/

/-- The features pass through a reshape to their own shape. -/
theorem pay3_eq (v0 : Vec Ideal S1000x64 .f32) : k1_pay3 (F := Ideal) v0 = v0 :=
  shapeCast_self _ _

/-- The product of the means with the transposed output map: entry `(r, o)` is `Σ_c a[r,c] · W[o,c]` (a change of
    float format is the identity on the extended reals, the accumulator is zero). -/
theorem pay4_apply (v2 : Vec Ideal S1000x4 .f32) (v5 : Vec Ideal S64x4 .f32) (r : Fin 1000) (o : Fin 64) :
    k1_pay4 (F := Ideal) v2 v5 (ix2 r o) = ∑ c : Fin 4, v2 (ix2 r c) * v5 (ix2 o c) := by
  refine ((DotIdx.matmul_plain_zero_apply (m := 1000) (k := 4) (n := 64) _ none _ _ r o :
    k1_pay4 (F := Ideal) v2 v5 (ix2 r o) = _)).trans ?_
  refine Finset.sum_congr rfl fun c _ => ?_
  congr 1
  · rw [truncf_apply, shapeCast_self]
  · refine (transpose_apply _ _ _ (ix2 c o) (ix2 o c) ?_).trans (truncf_apply _ _ _)
    intro b
    match b with
    | ⟨0, _⟩ => rfl
    | ⟨1, _⟩ => rfl

/-- The bias laid along rows and features: at `(r, g, o)`, entry `o`. -/
theorem pay5_apply (v9 : Vec Ideal S64 .f32) (r : Fin 1000) (g : Fin 8) (o : Fin 64) :
    k1_pay5 (F := Ideal) v9 (ix3 r g o) = v9 (ix1 o) := by
  unfold k1_pay5
  refine (broadcastTo_apply _ _ (ix3 r g o) (ix3 (0 : Fin 1) (0 : Fin 1) o) ?_).trans ?_
  · intro a
    match a with
    | ⟨0, _⟩ => rfl
    | ⟨1, _⟩ => rfl
    | ⟨2, _⟩ => rfl
  rw [shapeCast_self]
  refine shapeCast_apply _ _ (ix3 (0 : Fin 1) (0 : Fin 1) o) (ix1 o) ?_
  rw [Shape.rowMajor_val_one, Shape.rowMajor_val_three]
  show o.val = (0 * 1 + 0) * 64 + o.val
  omega

/-! ## The eight stores are eight stretches

Each store's payload, over the features, the matrix product and the bias, is the stretch at feature offset `8j`, by
unfolding; two of them are printed as two terms (the sum, then the floor and the flattening). -/

/-- The zero word as a scalar is the extended real zero-word. -/
abbrev zw : Ideal .f32 := Scalar.ofBits (F := Ideal) .f32 0x00000000#32

theorem store0_eq (x0 : Vec Ideal S1000x64 .f32) (x1 : Vec Ideal S1000x4 .f32) (x2 : Vec Ideal S64x4 .f32)
    (x3 : Vec Ideal S64 .f32) :
    k1_pay6 (F := Ideal) x0 x1 x2 x3
      = chunk 0 Facts₀.slices_S1000x64_o0_0_S1000x8 (k1_pay3 x0) (k1_pay4 x1 x2) (k1_pay5 x3) zw := rfl

theorem store1_eq (x0 : Vec Ideal S1000x64 .f32) (x1 : Vec Ideal S1000x4 .f32) (x2 : Vec Ideal S64x4 .f32)
    (x3 : Vec Ideal S64 .f32) :
    k1_pay7 (F := Ideal) x0 x1 x2 x3
      = chunk 8 Facts₀.slices_S1000x64_o0_8_S1000x8 (k1_pay3 x0) (k1_pay4 x1 x2) (k1_pay5 x3) zw := rfl

theorem store2_eq (x0 : Vec Ideal S1000x64 .f32) (x1 : Vec Ideal S1000x4 .f32) (x2 : Vec Ideal S64x4 .f32)
    (x3 : Vec Ideal S64 .f32) :
    k1_pay9 (F := Ideal) (k1_pay8 x0 x1 x2 x3) zw
      = chunk 16 Facts₀.slices_S1000x64_o0_16_S1000x8 (k1_pay3 x0) (k1_pay4 x1 x2) (k1_pay5 x3) zw := rfl

theorem store3_eq (v1 v8 : FVec Ideal S1000x64 .f32) (v12 : FVec Ideal S1000x8x64 .f32) :
    k1_pay10 (F := Ideal) v1 v8 v12 = chunk 24 Facts₀.slices_S1000x64_o0_24_S1000x8 v1 v8 v12 zw := rfl

theorem store4_eq (v1 v8 : FVec Ideal S1000x64 .f32) (v12 : FVec Ideal S1000x8x64 .f32) :
    k1_pay11 (F := Ideal) v1 v8 v12 = chunk 32 Facts₀.slices_S1000x64_o0_32_S1000x8 v1 v8 v12 zw := rfl

theorem store5_eq (v1 v8 : FVec Ideal S1000x64 .f32) (v12 : FVec Ideal S1000x8x64 .f32) :
    k1_pay12 (F := Ideal) v1 v8 v12 = chunk 40 Facts₀.slices_S1000x64_o0_40_S1000x8 v1 v8 v12 zw := rfl

theorem store6_eq (v1 v8 : FVec Ideal S1000x64 .f32) (v12 : FVec Ideal S1000x8x64 .f32) :
    k1_pay1 (F := Ideal) (k1_pay13 v1 v8 v12) zw
      = chunk 48 Facts₀.slices_S1000x64_o0_48_S1000x8 v1 v8 v12 zw := rfl

theorem store7_eq (v1 v8 : FVec Ideal S1000x64 .f32) (v12 : FVec Ideal S1000x8x64 .f32) :
    k1_pay2 (F := Ideal) v1 v8 v12 = chunk 56 Facts₀.slices_S1000x64_o0_56_S1000x8 v1 v8 v12 zw := rfl

/-! ## The block as one function of its index -/

/-- The entry at row `r`, feature `f`, channel `o`. -/
def cell (x0 : Vec Ideal S1000x64 .f32) (x1 : Vec Ideal S1000x4 .f32) (x2 : Vec Ideal S64x4 .f32)
    (x3 : Vec Ideal S64 .f32) (r : Fin 1000) (f o : Fin 64) : Ideal .f32 :=
  max (x0 (ix2 r f) * (∑ c : Fin 4, x1 (ix2 r c) * x2 (ix2 o c)) + x3 (ix1 o)) (Ideal.ofBits .f32 0x00000000#32)

/-- The feature of a column: `q / 64`. -/
def featOf (q : Fin 4096) : Fin 64 := ⟨q.val / 64, by omega⟩

/-- The channel of a column: `q % 64`. -/
def chanOf (q : Fin 4096) : Fin 64 := ⟨q.val % 64, by omega⟩

/-- The whole block: column `q` of row `r` is the entry at feature `q / 64`, channel `q % 64`. -/
def blockFn (x0 : Vec Ideal S1000x64 .f32) (x1 : Vec Ideal S1000x4 .f32) (x2 : Vec Ideal S64x4 .f32)
    (x3 : Vec Ideal S64 .f32) : Vec Ideal S1000x4096 .f32 :=
  fun y => cell x0 x1 x2 x3 (y 0) (featOf (y 1)) (chanOf (y 1))

/-- The stretch at feature offset `c0`, stored at column offset `c1 = 64 · c0`, agrees with the block function under
    its rectangle: local `(p, q)` sits at `(p, c1 + q)`, whose feature is `c0 + q / 64` and channel `q % 64`. -/
theorem piece_apply (c0 c1 : Nat) (h01 : c1 = 64 * c0) (hc : c0 + 8 ≤ 64)
    (inb : ∀ a, (![0, c1] : Fin 2 → Nat) a + S1000x512.size a ≤ S1000x4096.size a)
    (hs : S1000x64.Slices ![0, c0] S1000x8)
    (x0 : Vec Ideal S1000x64 .f32) (x1 : Vec Ideal S1000x4 .f32) (x2 : Vec Ideal S64x4 .f32) (x3 : Vec Ideal S64 .f32)
    (x : (Rect.unit (s := S1000x4096) ![0, c1] S1000x512.size inb).shape.Idx) :
    chunk c0 hs (k1_pay3 x0) (k1_pay4 x1 x2) (k1_pay5 x3) zw x
      = blockFn x0 x1 x2 x3 ((Rect.unit (s := S1000x4096) ![0, c1] S1000x512.size inb).emb x) := by
  obtain ⟨p, q, rfl⟩ : ∃ (p : Fin 1000) (q : Fin 512), x = ix2 p q := ⟨x 0, x 1, eq_ix2 x⟩
  have hq : q.val < 512 := q.isLt
  have e0 : ((Rect.unit (s := S1000x4096) ![0, c1] S1000x512.size inb).emb (ix2 p q)) 0 = p :=
    Fin.ext (by show 0 + 1 * p.val = p.val; omega)
  have e1 : ((Rect.unit (s := S1000x4096) ![0, c1] S1000x512.size inb).emb (ix2 p q)) 1
      = (⟨c1 + q.val, by omega⟩ : Fin 4096) :=
    Fin.ext (by show c1 + 1 * q.val = c1 + q.val; omega)
  show _ = cell x0 x1 x2 x3 _ (featOf _) (chanOf _)
  rw [e0, e1, pay3_eq,
    chunk_apply c0 hs x0 _ _ _ p q (⟨q.val / 64, by omega⟩ : Fin 8) (chanOf ⟨c1 + q.val, by omega⟩)
      (featOf ⟨c1 + q.val, by omega⟩) (by show (c1 + q.val) / 64 = c0 + q.val / 64; omega)
      (by show q.val = q.val / 64 * 64 + (c1 + q.val) % 64; omega),
    pay4_apply, pay5_apply]
  rfl

/-- A property of every member of a list, head and tail. -/
theorem forall_cons {α : Type} {P : α → Prop} {a : α} {l : List α} (h1 : P a) (h2 : ∀ x ∈ l, P x) :
    ∀ x ∈ a :: l, P x :=
  List.forall_mem_cons.mpr ⟨h1, h2⟩

/-- The output block at row `r`, column `f · 64 + o`. -/
theorem out1_4_apply (x0 : Vec Ideal S1000x64 .f32) (x1 : Vec Ideal S1000x4 .f32) (x2 : Vec Ideal S64x4 .f32)
    (x3 : Vec Ideal S64 .f32) (r : Fin 1000) (f o : Fin 64) :
    out1_4 (F := Ideal) x0 x1 x2 x3 (ix2 r (⟨f.val * 64 + o.val, by omega⟩ : Fin 4096))
      = max (x0 (ix2 r f) * (∑ c : Fin 4, x1 (ix2 r c) * x2 (ix2 o c)) + x3 (ix1 o))
          (Ideal.ofBits .f32 0x00000000#32) := by
  have ld0 : View.ld x0 r1_0 = x0 := View.ld_unit_zero (by funext a; fin_cases a <;> rfl) _ x0
  have ld1 : View.ld x1 r1_1 = x1 := View.ld_unit_zero (by funext a; fin_cases a <;> rfl) _ x1
  have ld2 : View.ld x2 r1_2 = x2 := View.ld_unit_zero (by funext a; fin_cases a <;> rfl) _ x2
  have ld3 : View.ld x3 r1_3 = x3 := View.ld_unit_zero (by funext a; fin_cases a <;> rfl) _ x3
  unfold out1_4
  rw [ld0, ld1, ld2, ld3]
  refine (View.canon_apply_of_pieces (blockFn x0 x1 x2 x3) _ ?_ _ (cover1_4 _ _ _ _ _ _ _ _ _)).trans ?_
  · refine forall_cons (fun x => ?_) (forall_cons (fun x => ?_) (forall_cons (fun x => ?_) (forall_cons (fun x => ?_)
      (forall_cons (fun x => ?_) (forall_cons (fun x => ?_) (forall_cons (fun x => ?_) (forall_cons (fun x => ?_)
      (fun _ h => absurd h List.not_mem_nil))))))))
    · exact (congrFun (store7_eq _ _ _) x).trans (piece_apply 56 3584 rfl (by omega)
        Facts₀.inb_S1000x4096_S1000x512_0_3584 Facts₀.slices_S1000x64_o0_56_S1000x8 x0 x1 x2 x3 x)
    · exact (congrFun (store6_eq _ _ _) x).trans (piece_apply 48 3072 rfl (by omega)
        Facts₀.inb_S1000x4096_S1000x512_0_3072 Facts₀.slices_S1000x64_o0_48_S1000x8 x0 x1 x2 x3 x)
    · exact (congrFun (store5_eq _ _ _) x).trans (piece_apply 40 2560 rfl (by omega)
        Facts₀.inb_S1000x4096_S1000x512_0_2560 Facts₀.slices_S1000x64_o0_40_S1000x8 x0 x1 x2 x3 x)
    · exact (congrFun (store4_eq _ _ _) x).trans (piece_apply 32 2048 rfl (by omega)
        Facts₀.inb_S1000x4096_S1000x512_0_2048 Facts₀.slices_S1000x64_o0_32_S1000x8 x0 x1 x2 x3 x)
    · exact (congrFun (store3_eq _ _ _) x).trans (piece_apply 24 1536 rfl (by omega)
        Facts₀.inb_S1000x4096_S1000x512_0_1536 Facts₀.slices_S1000x64_o0_24_S1000x8 x0 x1 x2 x3 x)
    · exact (congrFun (store2_eq x0 x1 x2 x3) x).trans (piece_apply 16 1024 rfl (by omega)
        Facts₀.inb_S1000x4096_S1000x512_0_1024 Facts₀.slices_S1000x64_o0_16_S1000x8 x0 x1 x2 x3 x)
    · exact (congrFun (store1_eq x0 x1 x2 x3) x).trans (piece_apply 8 512 rfl (by omega)
        Facts₀.inb_S1000x4096_S1000x512_0_512 Facts₀.slices_S1000x64_o0_8_S1000x8 x0 x1 x2 x3 x)
    · exact (congrFun (store0_eq x0 x1 x2 x3) x).trans (piece_apply 0 0 rfl (by omega)
        Facts₀.inb_S1000x4096_S1000x512_0_0 Facts₀.slices_S1000x64_o0_0_S1000x8 x0 x1 x2 x3 x)
  · show cell x0 x1 x2 x3 r (featOf ⟨f.val * 64 + o.val, _⟩) (chanOf ⟨f.val * 64 + o.val, _⟩) = _
    have ef : featOf (⟨f.val * 64 + o.val, by omega⟩ : Fin 4096) = f :=
      Fin.ext (by show (f.val * 64 + o.val) / 64 = f.val; omega)
    have eo : chanOf (⟨f.val * 64 + o.val, by omega⟩ : Fin 4096) = o :=
      Fin.ext (by show (f.val * 64 + o.val) % 64 = o.val; omega)
    rw [ef, eo]
    rfl

end Cert.KernelIdeal.AggBlock

end
-- ==== Proof.AggArrays.lean ====
/-
  The second pallas_call's output array after all fifty grid points, as one function of the arrays it found.

  Point `t` reads node rows `1000 t … 1000 t + 999` of the narrow features and of the means, the output map and bias
  whole, and writes the same rows of the output.  Column `f · 64 + o` of row `n` ends holding
  `max (xs[n,f] · (Σ_c a[n,c] · W[o,c]) + b[o]) 0`: the blocks written back are the restrictions of that one function,
  and the fifty blocks tile the 50000 rows.
-/
import proofs.«162915_j39204461478459_2_alg».proof.Proof.Gen.KernelIdeal.Frame
import proofs.«162915_j39204461478459_2_alg».proof.Proof.AggBlock
import Idealize.ShloMosaic.Lib.Pipeline.Value
import Idealize.ShloMosaic.Lib.ValueIdx

set_option maxRecDepth 16384

noncomputable section

namespace Cert.KernelIdeal.AggArrays

open Cert.KernelIdeal Cert.KernelIdeal.Gen Idealize.ShloMosaic Idealize.ShloMosaic.TcCoe Idealize.ShloMosaic.ValueIdx
open Idealize.SL.Sem
open Idealize.ShloMosaic.Pipeline (Dat)

/-- The feature a column of the slab belongs to, and its channel. -/
def featOf (q : Fin 4096) : Fin 64 := ⟨q.val / 64, by omega⟩
def chanOf (q : Fin 4096) : Fin 64 := ⟨q.val % 64, by omega⟩

theorem featOf_mk (f o : Fin 64) (h : f.val * 64 + o.val < 4096) : featOf ⟨f.val * 64 + o.val, h⟩ = f :=
  Fin.ext (by show (f.val * 64 + o.val) / 64 = f.val; omega)
theorem chanOf_mk (f o : Fin 64) (h : f.val * 64 + o.val < 4096) : chanOf ⟨f.val * 64 + o.val, h⟩ = o :=
  Fin.ext (by show (f.val * 64 + o.val) % 64 = o.val; omega)

/-- The slab at node `n`, feature `f`, channel `o`. -/
def slabAt (XS : S50000x64.Idx → EReal) (A : S50000x4.Idx → EReal) (WO : S64x4.Idx → EReal) (BO : S64.Idx → EReal)
    (n : Fin 50000) (f o : Fin 64) : EReal :=
  max (XS (ix2 n f) * (∑ c : Fin 4, A (ix2 n c) * WO (ix2 o c)) + BO (ix1 o)) (Ideal.ofBits .f32 0x00000000#32)

/-- The slab as an array of 50000 × 4096. -/
def slab (XS : S50000x64.Idx → EReal) (A : S50000x4.Idx → EReal) (WO : S64x4.Idx → EReal) (BO : S64.Idx → EReal) :
    S50000x4096.Idx → EReal :=
  fun i => slabAt XS A WO BO (i 0) (featOf (i 1)) (chanOf (i 1))

variable (V : (c : Dev nD) → (b : Ref sig .tc) → Buf (Elt Ideal) ((c : Thread nD τ).loc b))

/-- The printed index maps over the fifty points: the row-blocked windows are at block `t`, the others at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

theorem lt_fifty (t : Fin cfg1.N) : t.val < 50 := by
  have h : t.val < grid1.N := t.isLt
  rw [N_1] at h; exact h

/-! ## The input blocks at a point -/

theorem blk_xs (c : Dev nD) (t : Fin cfg1.N) (e0 : win1_0.index t (0 : Fin 2) = t.val) (e1 : win1_0.index t (1 : Fin 2) = 0)
    (ht : t.val < 50) (p : Fin 1000) (f : Fin 64) :
    iblk1 V c 0 t (ix2 p f) = V c main_v0_1 (ix2 (⟨t.val * 1000 + p.val, by omega⟩ : Fin 50000) f) := by
  show V c main_v0_1 (((cfg1.win 0).blk t).view.emb (ix2 p f)) = _
  refine congrArg (V c main_v0_1) ?_
  funext a; apply Fin.ext
  match a with
  | ⟨0, _⟩ => show win1_0.index t (0 : Fin 2) * 1000 + 1 * p.val = t.val * 1000 + p.val; omega
  | ⟨1, _⟩ => show win1_0.index t (1 : Fin 2) * 64 + 1 * f.val = f.val; omega

theorem blk_a (c : Dev nD) (t : Fin cfg1.N) (e0 : win1_1.index t (0 : Fin 2) = t.val) (e1 : win1_1.index t (1 : Fin 2) = 0)
    (ht : t.val < 50) (p : Fin 1000) (k : Fin 4) :
    iblk1 V c 1 t (ix2 p k) = V c main_v29 (ix2 (⟨t.val * 1000 + p.val, by omega⟩ : Fin 50000) k) := by
  show V c main_v29 (((cfg1.win 1).blk t).view.emb (ix2 p k)) = _
  refine congrArg (V c main_v29) ?_
  funext a; apply Fin.ext
  match a with
  | ⟨0, _⟩ => show win1_1.index t (0 : Fin 2) * 1000 + 1 * p.val = t.val * 1000 + p.val; omega
  | ⟨1, _⟩ => show win1_1.index t (1 : Fin 2) * 4 + 1 * k.val = k.val; omega

theorem blk_w (c : Dev nD) (t : Fin cfg1.N) (e0 : win1_2.index t (0 : Fin 2) = 0) (e1 : win1_2.index t (1 : Fin 2) = 0)
    (o : Fin 64) (k : Fin 4) :
    iblk1 V c 2 t (ix2 o k) = V c main_arg4 (ix2 o k) := by
  show V c main_arg4 (((cfg1.win 2).blk t).view.emb (ix2 o k)) = _
  refine congrArg (V c main_arg4) ?_
  funext a; apply Fin.ext
  match a with
  | ⟨0, _⟩ => show win1_2.index t (0 : Fin 2) * 64 + 1 * o.val = o.val; omega
  | ⟨1, _⟩ => show win1_2.index t (1 : Fin 2) * 4 + 1 * k.val = k.val; omega

theorem blk_b (c : Dev nD) (t : Fin cfg1.N) (e0 : win1_3.index t (0 : Fin 1) = 0) (o : Fin 64) :
    iblk1 V c 3 t (ix1 o) = V c main_arg5 (ix1 o) := by
  show V c main_arg5 (((cfg1.win 3).blk t).view.emb (ix1 o)) = _
  refine congrArg (V c main_arg5) ?_
  funext a; apply Fin.ext
  match a with
  | ⟨0, _⟩ => show win1_3.index t (0 : Fin 1) * 64 + 1 * o.val = o.val; omega

/-! ## What a point writes back -/

/-- One entry of point `t`'s output block: row `p`, column `f · 64 + o` is the slab at the block's place in the array. -/
theorem flushed4_point (c : Dev nD) (t : Fin cfg1.N) (p : Fin 1000) (f o : Fin 64) :
    out1_4 (iblk1 V c 0 t) (iblk1 V c 1 t) (iblk1 V c 2 t) (iblk1 V c 3 t) (ix2 p (⟨f.val * 64 + o.val, by omega⟩ : Fin 4096))
      = slab (V c main_v0_1) (V c main_v29) (V c main_arg4) (V c main_arg5)
          (((cfg1.win 4).blk t).view.emb (ix2 p (⟨f.val * 64 + o.val, by omega⟩ : Fin 4096))) := by
  obtain ⟨e00, e01, e10, e11, e20, e21, e30, e40, e41⟩ := idx_facts t
  have ht := lt_fifty t
  have hemb : ((cfg1.win 4).blk t).view.emb (ix2 p (⟨f.val * 64 + o.val, by omega⟩ : Fin 4096))
      = ix2 (⟨t.val * 1000 + p.val, by omega⟩ : Fin 50000) (⟨f.val * 64 + o.val, by omega⟩ : Fin 4096) := by
    funext a; apply Fin.ext
    match a with
    | ⟨0, _⟩ => show win1_4.index t (0 : Fin 2) * 1000 + 1 * p.val = t.val * 1000 + p.val; omega
    | ⟨1, _⟩ => show win1_4.index t (1 : Fin 2) * 4096 + 1 * (f.val * 64 + o.val) = f.val * 64 + o.val; omega
  rw [hemb]
  refine (AggBlock.out1_4_apply (iblk1 V c 0 t) (iblk1 V c 1 t) (iblk1 V c 2 t) (iblk1 V c 3 t) p f o).trans ?_
  show _ = slabAt (V c main_v0_1) (V c main_v29) (V c main_arg4) (V c main_arg5) (⟨t.val * 1000 + p.val, by omega⟩ : Fin 50000)
      (featOf (⟨f.val * 64 + o.val, by omega⟩ : Fin 4096)) (chanOf (⟨f.val * 64 + o.val, by omega⟩ : Fin 4096))
  rw [featOf_mk, chanOf_mk]
  unfold slabAt
  rw [blk_xs V c t e00 e01 ht, blk_b V c t e30]
  simp only [blk_a V c t e10 e11 ht, blk_w V c t e20 e21]

/-- Point `t`'s output block is block `t` of the slab of the arrays the call found. -/
theorem flushed4_eq (c : Dev nD) (t : Fin cfg1.N) :
    (dat1 V c).flushed 4 t
      = ((cfg1.win 4).blk t).view.read (Elt Ideal) (slab (V c main_v0_1) (V c main_v29) (V c main_arg4) (V c main_arg5)) := by
  show (cfg1.win 4).cut (grid1.coords t) ((dat1 V c).after 4 t) = _
  rw [after1_4]
  funext j
  have hj0 : (j 0).val < 1000 := (j 0).isLt
  have hj1 : (j 1).val < 4096 := (j 1).isLt
  have hf : (j 1).val / 64 < 64 := by omega
  have ho : (j 1).val % 64 < 64 := by omega
  have key := flushed4_point V c t (⟨(j 0).val, hj0⟩ : Fin 1000) (⟨(j 1).val / 64, hf⟩ : Fin 64) (⟨(j 1).val % 64, ho⟩ : Fin 64)
  have hjj : ix2 (⟨(j 0).val, hj0⟩ : Fin 1000)
      (⟨(⟨(j 1).val / 64, hf⟩ : Fin 64).val * 64 + (⟨(j 1).val % 64, ho⟩ : Fin 64).val, by show (j 1).val / 64 * 64 + (j 1).val % 64 < 4096; omega⟩ : Fin 4096) = j := by
    funext a
    match a with
    | ⟨0, _⟩ => rfl
    | ⟨1, _⟩ => exact Fin.ext (by show (j 1).val / 64 * 64 + (j 1).val % 64 = (j 1).val; omega)
  rw [hjj] at key
  exact key

/-! ## The blocks tile the rows -/

theorem mem_blk4 (t : Fin cfg1.N) (i : S50000x4096.Idx) :
    i ∈ ((cfg1.win 4).blk t).view.set
      ↔ ∀ a : Fin 2, win1_4.index t a * S1000x4096.size a ≤ (i a).val ∧ (i a).val < win1_4.index t a * S1000x4096.size a + S1000x4096.size a := by
  show i ∈ ((View.whole main_v30).slice (win1_4.rect t)).set ↔ _
  rw [View.set_slice_whole, Rect.mem_set_unit]
  exact Iff.rfl

theorem cover4 (i : S50000x4096.Idx) : ∃ t : Fin cfg1.N, (cfg1.win 4).flush t = true ∧ i ∈ ((cfg1.win 4).blk t).view.set := by
  have hi0 : (i 0).val < 50000 := (i 0).isLt
  have hi1 : (i 1).val < 4096 := (i 1).isLt
  let t : Fin cfg1.N := ⟨(i 0).val / 1000, by show _ < grid1.N; rw [N_1]; omega⟩
  have htv : t.val = (i 0).val / 1000 := rfl
  obtain ⟨e00, e01, e10, e11, e20, e21, e30, e40, e41⟩ := idx_facts t
  refine ⟨t, flush1_4 t, ?_⟩
  rw [mem_blk4]
  intro a
  match a with
  | ⟨0, _⟩ => show win1_4.index t (0 : Fin 2) * 1000 ≤ (i 0).val ∧ (i 0).val < win1_4.index t (0 : Fin 2) * 1000 + 1000; omega
  | ⟨1, _⟩ => show win1_4.index t (1 : Fin 2) * 4096 ≤ (i 1).val ∧ (i 1).val < win1_4.index t (1 : Fin 2) * 4096 + 4096; omega

/-! ## The array after the call -/

/-- The output array ends holding the slab of the arrays the call found. -/
theorem arr4 (c : Dev nD) :
    (dat1 V c).arrAt 4 cfg1.N = slab (V c main_v0_1) (V c main_v29) (V c main_arg4) (V c main_arg5) :=
  (dat1 V c).arrAt_eq_of_cover 4 (slab (V c main_v0_1) (V c main_v29) (V c main_arg4) (V c main_arg5))
    (fun t _ => flushed4_eq V c t) (cover4)

end Cert.KernelIdeal.AggArrays

end
-- ==== Proof.Middle.lean ====
/-
  The host operations between the two pallas_calls, named.

  From the padded signal table `S8` (50000 × 8) and the edge list `EI` (2 × 1600000): the source and target rows of
  the edge list as vectors; the source column with negative indices wrapped; the gathered rows with lane 4 overwritten
  by ones; their accumulating scatter into the target nodes (lanes 0–3 the totals, lane 4 the in-degree); the totals
  divided by the in-degree raised to at least one; and zero at the nodes without in-edges.  Each definition is one or
  two printed operations; `means` is the array the second pallas_call reads.
-/
import proofs.«162915_j39204461478459_2_alg».proof.Proof.Gen.KernelIdeal
import Idealize.ShloMosaic.PureOps.Ideal

noncomputable section

namespace Cert.KernelIdeal.Middle

open Cert.KernelIdeal Cert.KernelIdeal.Gen Idealize.ShloMosaic

/-- The edge list's first row as a vector: the sources. -/
def srcVec (EI : IVec S2x1600000 32) : IVec S1600000 32 :=
  shapeCast S1600000 (extractStridedSlice S1x1600000 ![0, 0] EI slices_S2x1600000_S1x1600000_0_0) shapeCasts_S1x1600000_S1600000

/-- The edge list's second row as a vector: the targets. -/
def tgtVec (EI : IVec S2x1600000 32) : IVec S1600000 32 :=
  shapeCast S1600000 (extractStridedSlice S1x1600000 ![1, 0] EI slices_S2x1600000_S1x1600000_1_0) shapeCasts_S1x1600000_S1600000

/-- The gather's start indices: a negative source has 50000 added. -/
def srcCol (EI : IVec S2x1600000 32) : IVec S1600000x1 32 :=
  broadcastInDim S1600000x1 ![0] bcast_S1600000_S1600000x1_0
    (select (cmpi .slt (srcVec EI) (broadcastInDim S1600000 ![] bcast_S_S1600000 (constantI S_ 32 0#32)))
      (addi (srcVec EI) (broadcastInDim S1600000 ![] bcast_S_S1600000 (constantI S_ 32 50000#32)))
      (srcVec EI))

/-- The scatter's indices: the targets. -/
def tgtCol (EI : IVec S2x1600000 32) : IVec S1600000x1 32 :=
  broadcastInDim S1600000x1 ![0] bcast_S1600000_S1600000x1_0 (tgtVec EI)

/-- Each edge's source row of the table, lane 4 overwritten by one. -/
def stamped (S8 : FVec Ideal S50000x8 .f32) (EI : IVec S2x1600000 32) : FVec Ideal S1600000x8 .f32 :=
  Host.scatter scatter_S1600000x8_S1_S1600000_0_1_1_0 (fun _ b => b)
    (Host.gather gather_S50000x8_S1600000x1_S1600000x8_1_0_n_n_0_1_18 S8 (srcCol EI))
    (broadcastInDim S1 ![] bcast_S_S1 (constantI S_ 32 4#32))
    (broadcastInDim S1600000 ![] bcast_S_S1600000 (constant (F := Ideal) S_ .f32 0x3F800000#32))

/-- The stamped rows summed into their target nodes, from zero. -/
def merged (S8 : FVec Ideal S50000x8 .f32) (EI : IVec S2x1600000 32) : FVec Ideal S50000x8 .f32 :=
  Host.scatterAdd scatter_S50000x8_S1600000x1_S1600000x8_1_0_0_1
    (broadcastInDim S50000x8 ![] bcast_S_S50000x8 (constant (F := Ideal) S_ .f32 0x00000000#32)) (tgtCol EI) (stamped S8 EI)

/-- Lane 4 of the sums: the in-degrees. -/
def degree (S8 : FVec Ideal S50000x8 .f32) (EI : IVec S2x1600000 32) : FVec Ideal S50000 .f32 :=
  shapeCast S50000 (extractStridedSlice S50000x1 ![0, 4] (merged S8 EI) slices_S50000x8_S50000x1_0_4) shapeCasts_S50000x1_S50000

/-- Lanes 0–3 of the sums over the in-degree raised to at least one. -/
def quotient (S8 : FVec Ideal S50000x8 .f32) (EI : IVec S2x1600000 32) : FVec Ideal S50000x4 .f32 :=
  Host.divf (extractStridedSlice S50000x4 ![0, 0] (merged S8 EI) slices_S50000x8_S50000x4_0_0)
    (broadcastInDim S50000x4 ![0, 1] bcast_S50000x1_S50000x4_0_1
      (broadcastInDim S50000x1 ![0] bcast_S50000_S50000x1_0
        (maximumf (degree S8 EI) (broadcastInDim S50000 ![] bcast_S_S50000 (constant (F := Ideal) S_ .f32 0x3F800000#32)))))

/-- Whether a node has an in-edge. -/
def hasIn (S8 : FVec Ideal S50000x8 .f32) (EI : IVec S2x1600000 32) : IVec S50000x1 1 :=
  cmpf .ogt (broadcastInDim S50000x1 ![0] bcast_S50000_S50000x1_0 (degree S8 EI))
    (broadcastInDim S50000x1 ![] bcast_S_S50000x1 (constant (F := Ideal) S_ .f32 0x00000000#32))

/-- The means: the quotient where a node has an in-edge, zero elsewhere. -/
def means (S8 : FVec Ideal S50000x8 .f32) (EI : IVec S2x1600000 32) : FVec Ideal S50000x4 .f32 :=
  select (broadcastInDim S50000x4 ![0, 1] bcast_S50000x1_S50000x4_0_1 (hasIn S8 EI)) (quotient S8 EI)
    (broadcastInDim S50000x4 ![] bcast_S_S50000x4 (id (constant (F := Ideal) S_ .f32 0x00000000#32)))

end Cert.KernelIdeal.Middle

end
-- ==== Proof.MiddleValue.lean ====
/-
  The host operations between the two pallas_calls compute the specification's mean.

  Lanes 0–3 of a stamped row are the table's row at the edge's (wrapped, clamped) source — the stamp overwrites lane 4
  only — so lanes 0–3 of the scattered sums are the totals of the table's first four lanes over each node's in-edges;
  lane 4 of every stamped row is one, so lane 4 of the sums is the in-degree.  The rest — the comparison with zero, the
  maximum with one, the quotient, the choice of zero — is the specification's `mean` read entry by entry.
-/
import proofs.«162915_j39204461478459_2_alg».proof.Proof.Middle
import proofs.«162915_j39204461478459_2_alg».proof.Proof.LibScatter
import proofs.«162915_j39204461478459_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.MiddleValue

open Cert.KernelIdeal Cert.KernelIdeal.Gen Cert.KernelIdeal.Middle Idealize.ShloMosaic Idealize.ShloMosaic.ValueIdx

/-- A scalar laid over any shape reads the scalar everywhere. -/
theorem scalarBcast_apply {T : Shape} {α : Type} (h : S_.BroadcastsInDim T ![]) (x : S_.Idx → α) (j : T.Idx) :
    broadcastInDim T ![] h x j = x ix0 :=
  broadcastInDim_apply ![] h x j ix0 (fun a => a.elim0)

/-! ## The edge list's rows -/

/-- The sources: the edge list's first row. -/
theorem srcVec_apply (EI : IVec S2x1600000 32) (e : Fin 1600000) :
    srcVec EI (ix1 e) = EI (ix2 (0 : Fin 2) e) := by
  unfold srcVec
  refine (shapeCast_apply _ shapeCasts_S1x1600000_S1600000 (ix1 e) (ix2 (0 : Fin 1) e) ?_).trans ?_
  · rw [Shape.rowMajor_val_two, Shape.rowMajor_val_one]
    show 0 * 1600000 + e.val = e.val
    omega
  · refine extractStridedSlice_apply _ EI slices_S2x1600000_S1x1600000_0_0 (ix2 (0 : Fin 1) e) (ix2 (0 : Fin 2) e) ?_
    intro a
    match a with
    | ⟨0, _⟩ => rfl
    | ⟨1, _⟩ => show e.val = 0 + e.val; omega

/-- The targets: the edge list's second row. -/
theorem tgtVec_apply (EI : IVec S2x1600000 32) (e : Fin 1600000) :
    tgtVec EI (ix1 e) = EI (ix2 (1 : Fin 2) e) := by
  unfold tgtVec
  refine (shapeCast_apply _ shapeCasts_S1x1600000_S1600000 (ix1 e) (ix2 (0 : Fin 1) e) ?_).trans ?_
  · rw [Shape.rowMajor_val_two, Shape.rowMajor_val_one]
    show 0 * 1600000 + e.val = e.val
    omega
  · refine extractStridedSlice_apply _ EI slices_S2x1600000_S1x1600000_1_0 (ix2 (0 : Fin 1) e) (ix2 (1 : Fin 2) e) ?_
    intro a
    match a with
    | ⟨0, _⟩ => rfl
    | ⟨1, _⟩ => show e.val = 0 + e.val; omega

/-- A vector of edges read as a one-column matrix. -/
theorem edgeCol_apply {α : Type} (v : S1600000.Idx → α) (e : Fin 1600000) :
    broadcastInDim S1600000x1 ![0] bcast_S1600000_S1600000x1_0 v (ix2 e (0 : Fin 1)) = v (ix1 e) := by
  refine broadcastInDim_apply ![0] bcast_S1600000_S1600000x1_0 v (ix2 e (0 : Fin 1)) (ix1 e) ?_
  intro a
  match a with
  | ⟨0, _⟩ =>
    show e.val = if (1600000 : ℕ) = 1 then 0 else e.val
    rw [if_neg (by decide)]

/-- The gather's start index of an edge is its normalised source word. -/
theorem srcCol_apply (EI : IVec S2x1600000 32) (e : Fin 1600000) :
    srcCol EI (ix2 e (0 : Fin 1)) = Cert.GraphMean.srcWord EI e := by
  unfold srcCol
  refine (edgeCol_apply _ e).trans ?_
  show Scalar.select (IntOp.cmpi .slt (srcVec EI (ix1 e)) _) (IntOp.addi (srcVec EI (ix1 e)) _) (srcVec EI (ix1 e)) = _
  rw [srcVec_apply]
  rfl

/-- The scatter's index of an edge is its target word. -/
theorem tgtCol_apply (EI : IVec S2x1600000 32) (e : Fin 1600000) :
    tgtCol EI (ix2 e (0 : Fin 1)) = EI (ix2 (1 : Fin 2) e) := by
  unfold tgtCol
  exact (edgeCol_apply _ e).trans (tgtVec_apply EI e)

/-! ## The stamped rows and their sums -/

/-- An edge's stamped row: one in lane 4, elsewhere the table's row at the edge's source. -/
theorem stamped_apply (S8 : FVec Ideal S50000x8 .f32) (EI : IVec S2x1600000 32) (e : Fin 1600000) (l : Fin 8) :
    stamped S8 EI (ix2 e l)
      = if l.val = 4 then Cert.GraphMean.oneF else S8 (ix2 (Cert.GraphMean.row EI e) l) := by
  unfold stamped
  refine (Cert.LibScatter.colSet_apply scatter_S1600000x8_S1_S1600000_0_1_1_0_wf _ _ _ e l).trans ?_
  have hidx : (broadcastInDim S1 ![] bcast_S_S1 (constantI S_ 32 4#32) (ix1 (0 : Fin 1))).toInt = 4 := by
    rw [scalarBcast_apply]; rfl
  rw [hidx]
  by_cases h : l.val = 4
  · rw [if_pos h, if_pos (show (4 : ℤ) = (l.val : ℤ) by omega), scalarBcast_apply]
    rfl
  · rw [if_neg h, if_neg (show ¬ (4 : ℤ) = (l.val : ℤ) by omega)]
    refine (Cert.LibScatter.rowGather_apply (by decide) gather_S50000x8_S1600000x1_S1600000x8_1_0_n_n_0_1_18_wf
      S8 (srcCol EI) e l).trans ?_
    have hrow : (⟨min (srcCol EI (ix2 e (0 : Fin 1))).toInt.toNat (50000 - 1), by omega⟩ : Fin 50000)
        = Cert.GraphMean.row EI e :=
      Fin.ext (by
        show min (srcCol EI (ix2 e (0 : Fin 1))).toInt.toNat (50000 - 1) = min (Cert.GraphMean.srcWord EI e).toInt.toNat (50000 - 1)
        rw [srcCol_apply])
    exact congrArg (fun r => S8 (ix2 r l)) hrow

/-- The sums at node `n`, lane `l`: from the zero word, the stamped rows of the node's in-edges. -/
theorem merged_apply (S8 : FVec Ideal S50000x8 .f32) (EI : IVec S2x1600000 32) (n : Fin 50000) (l : Fin 8) :
    merged S8 EI (ix2 n l)
      = Cert.GraphMean.zeroF + ∑ e : Fin 1600000,
          if (EI (ix2 (1 : Fin 2) e)).toInt = (n.val : ℤ) then stamped S8 EI (ix2 e l) else 0 := by
  unfold merged
  refine (Cert.LibScatter.rowScatterAdd_apply scatter_S50000x8_S1600000x1_S1600000x8_1_0_0_1_wf _ (tgtCol EI)
    (stamped S8 EI) n l).trans ?_
  refine congrArg₂ (· + ·) ?_ (Finset.sum_congr rfl fun e _ => ?_)
  · rw [scalarBcast_apply]; rfl
  · rw [tgtCol_apply]

/-- Lanes 0–3 of the sums are the totals of the table's first four lanes. -/
theorem merged_total (S8 : FVec Ideal S50000x8 .f32) (EI : IVec S2x1600000 32) (n : Fin 50000) (c : Fin 4) :
    merged S8 EI (ix2 n (⟨c.val, by omega⟩ : Fin 8))
      = Cert.GraphMean.total EI (fun n' c' => S8 (ix2 n' (⟨c'.val, by omega⟩ : Fin 8))) n c := by
  rw [merged_apply]
  unfold Cert.GraphMean.total
  refine congrArg (fun t => Cert.GraphMean.zeroF + t) (Finset.sum_congr rfl fun e _ => ?_)
  rw [stamped_apply, if_neg (show ¬ ((⟨c.val, by omega⟩ : Fin 8)).val = 4 from by
    show ¬ (c.val = 4); have := c.isLt; omega)]

/-- Lane 4 of the sums is the in-degree. -/
theorem merged_count (S8 : FVec Ideal S50000x8 .f32) (EI : IVec S2x1600000 32) (n : Fin 50000) :
    merged S8 EI (ix2 n (4 : Fin 8)) = Cert.GraphMean.count EI n := by
  rw [merged_apply]
  unfold Cert.GraphMean.count
  refine congrArg (fun t => Cert.GraphMean.zeroF + t) (Finset.sum_congr rfl fun e _ => ?_)
  rw [stamped_apply, if_pos (show ((4 : Fin 8)).val = 4 from rfl)]

/-- The in-degrees as a vector. -/
theorem degree_apply (S8 : FVec Ideal S50000x8 .f32) (EI : IVec S2x1600000 32) (n : Fin 50000) :
    degree S8 EI (ix1 n) = Cert.GraphMean.count EI n := by
  unfold degree
  refine (shapeCast_apply _ shapeCasts_S50000x1_S50000 (ix1 n) (ix2 n (0 : Fin 1)) ?_).trans ?_
  · rw [Shape.rowMajor_val_two, Shape.rowMajor_val_one]
    show n.val * 1 + 0 = n.val
    omega
  · refine (extractStridedSlice_apply _ (merged S8 EI) slices_S50000x8_S50000x1_0_4 (ix2 n (0 : Fin 1))
      (ix2 n (4 : Fin 8)) ?_).trans (merged_count S8 EI n)
    intro a
    match a with
    | ⟨0, _⟩ => show n.val = 0 + n.val; omega
    | ⟨1, _⟩ => rfl

/-! ## The quotient, the test and the choice -/

/-- The host's quotient of two arrays at an index is the quotient of the entries. -/
theorem hostDiv_apply {s : Shape} {φ : FTy} (a b : FVec Ideal s φ) (i : s.Idx) :
    Host.divf a b i = Ideal.div (a i) (b i) := rfl

/-- A comparison of two arrays at an index is the comparison of the entries. -/
theorem cmpIdeal_apply {s : Shape} {φ : FTy} (p : CmpFPredicate) (a b : FVec Ideal s φ) (i : s.Idx) :
    cmpf p a b i = Ideal.cmp p (a i) (b i) := rfl

/-- A vector of nodes read as a one-column matrix. -/
theorem nodeCol_apply {α : Type} (v : S50000.Idx → α) (n : Fin 50000) :
    broadcastInDim S50000x1 ![0] bcast_S50000_S50000x1_0 v (ix2 n (0 : Fin 1)) = v (ix1 n) := by
  refine broadcastInDim_apply ![0] bcast_S50000_S50000x1_0 v (ix2 n (0 : Fin 1)) (ix1 n) ?_
  intro a
  match a with
  | ⟨0, _⟩ =>
    show n.val = if (50000 : ℕ) = 1 then 0 else n.val
    rw [if_neg (by decide)]

/-- A one-column matrix of nodes repeated along four lanes. -/
theorem nodeLanes_apply {α : Type} (v : S50000x1.Idx → α) (n : Fin 50000) (c : Fin 4) :
    broadcastInDim S50000x4 ![0, 1] bcast_S50000x1_S50000x4_0_1 v (ix2 n c) = v (ix2 n (0 : Fin 1)) := by
  refine broadcastInDim_apply ![0, 1] bcast_S50000x1_S50000x4_0_1 v (ix2 n c) (ix2 n (0 : Fin 1)) ?_
  intro a
  match a with
  | ⟨0, _⟩ =>
    show n.val = if (50000 : ℕ) = 1 then 0 else n.val
    rw [if_neg (by decide)]
  | ⟨1, _⟩ =>
    show (0 : ℕ) = if (1 : ℕ) = 1 then 0 else c.val
    rw [if_pos rfl]

/-- The quotient at node `n`, core `c`. -/
theorem quotient_apply (S8 : FVec Ideal S50000x8 .f32) (EI : IVec S2x1600000 32) (n : Fin 50000) (c : Fin 4) :
    quotient S8 EI (ix2 n c)
      = Ideal.div (Cert.GraphMean.total EI (fun n' c' => S8 (ix2 n' (⟨c'.val, by omega⟩ : Fin 8))) n c)
          (max (Cert.GraphMean.count EI n) Cert.GraphMean.oneF) := by
  unfold quotient
  refine (hostDiv_apply _ _ _).trans (congrArg₂ Ideal.div ?_ ?_)
  · refine (extractStridedSlice_apply _ (merged S8 EI) slices_S50000x8_S50000x4_0_0 (ix2 n c)
      (ix2 n (⟨c.val, by omega⟩ : Fin 8)) ?_).trans (merged_total S8 EI n c)
    intro a
    match a with
    | ⟨0, _⟩ => show n.val = 0 + n.val; omega
    | ⟨1, _⟩ => show c.val = 0 + c.val; omega
  · rw [nodeLanes_apply, nodeCol_apply, maximumf_apply, degree_apply, scalarBcast_apply, constant_apply]

/-- Whether node `n` has an in-edge. -/
theorem hasIn_apply (S8 : FVec Ideal S50000x8 .f32) (EI : IVec S2x1600000 32) (n : Fin 50000) :
    hasIn S8 EI (ix2 n (0 : Fin 1)) = Ideal.cmp .ogt (Cert.GraphMean.count EI n) Cert.GraphMean.zeroF := by
  unfold hasIn
  refine (cmpIdeal_apply _ _ _ _).trans (congrArg₂ (Ideal.cmp .ogt) ?_ ?_)
  · rw [nodeCol_apply, degree_apply]
  · rw [scalarBcast_apply, constant_apply]

/-- The means at node `n`, core `c`: the specification's mean of the table's first four lanes. -/
theorem means_apply (S8 : FVec Ideal S50000x8 .f32) (EI : IVec S2x1600000 32) (n : Fin 50000) (c : Fin 4) :
    means S8 EI (ix2 n c)
      = Cert.GraphMean.mean EI (fun n' c' => S8 (ix2 n' (⟨c'.val, by omega⟩ : Fin 8))) n c := by
  unfold means
  rw [select_apply, nodeLanes_apply, hasIn_apply, quotient_apply, scalarBcast_apply]
  unfold Cert.GraphMean.mean
  rfl

end Cert.KernelIdeal.MiddleValue

end
-- ==== Proof.KernelValue.lean ====
/-
  The idealized kernel's result, entry by entry, is the specification's factored form.

  The run's result buffer holds the last boundary's contents; walking back through the segments: a reshape of the
  second pallas_call's output array; that array is the slab of the arrays the call found; those are the narrow copy of
  the features the first call wrote, the means the host operations computed from the first call's padded signal table
  and the edge list, and the output map and bias as launched; and the first call's two arrays are the padded signal
  table and the first 64 feature columns of the arguments.  Entry `(n, f, o)` of the result is column `f · 64 + o` of
  row `n` of the slab.
-/
import proofs.«162915_j39204461478459_2_alg».proof.Proof.Gen.KernelIdeal.Frame
import proofs.«162915_j39204461478459_2_alg».proof.Proof.KernelRun
import proofs.«162915_j39204461478459_2_alg».proof.Proof.SignalArrays
import proofs.«162915_j39204461478459_2_alg».proof.Proof.AggArrays
import proofs.«162915_j39204461478459_2_alg».proof.Proof.Middle
import proofs.«162915_j39204461478459_2_alg».proof.Proof.MiddleValue
import proofs.«162915_j39204461478459_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.StableHlo Idealize.ShloMosaic.ValueIdx

/-! ## The slab of the first call's arrays and the means is the specification -/

/-- With the narrow features and the padded signal table of the arguments, and the means the host operations compute
    from that table, the slab's entry is the specification's factored result. -/
theorem slab_spec (X : S50000x512.Idx → EReal) (EI : IVec S2x1600000 32) (CW : S4x512.Idx → EReal) (CB : S4.Idx → EReal)
    (WO : S64x4.Idx → EReal) (BO : S64.Idx → EReal) (n : Fin 50000) (f o : Fin 64) :
    AggArrays.slabAt (SignalArrays.xsmall X) (Middle.means (SignalArrays.spad X CW CB) EI) WO BO n f o
      = Cert.GraphMean.outFactored X EI CW CB WO BO n f o := by
  have hm : ∀ c : Fin 4, Middle.means (SignalArrays.spad X CW CB) EI (ix2 n c)
      = Cert.GraphMean.mean EI (Cert.GraphMean.signal X CW CB) n c := by
    intro c
    rw [MiddleValue.means_apply]
    refine congrArg (fun S => Cert.GraphMean.mean EI S n c) ?_
    funext n' c'
    show SignalArrays.spadAt X CW CB n' (⟨c'.val, by omega⟩ : Fin 8) = _
    unfold SignalArrays.spadAt
    rw [dif_pos (show (⟨c'.val, by omega⟩ : Fin 8).val < 4 from c'.isLt)]
    rfl
  unfold AggArrays.slabAt Cert.GraphMean.outFactored
  simp only [hm]
  rfl

variable (m : (ℓ : Loc nD τ sig) → Buf (Elt Ideal) ℓ) (ρ : Dev nD → PrngReg)

/-! ## The first call's arrays, and the arguments, as the host operations find them -/

theorem w1_spad (c : Dev nD) : W1 m ρ c (Proc.devRef .tc main_v0_0)
    = SignalArrays.spad (m ((c : Thread nD τ).loc main_arg0)) (m ((c : Thread nD τ).loc main_arg2)) (m ((c : Thread nD τ).loc main_arg3)) :=
  (W1_arr m ρ c 3).trans (SignalArrays.arr3 (V0 m ρ) c)

theorem w1_xsmall (c : Dev nD) : W1 m ρ c (Proc.devRef .tc main_v0_1)
    = SignalArrays.xsmall (m ((c : Thread nD τ).loc main_arg0)) :=
  (W1_arr m ρ c 4).trans (SignalArrays.arr4 (V0 m ρ) c)

theorem w1_arg1 (c : Dev nD) : W1 m ρ c (Proc.devRef .tc main_arg1) = m ((c : Thread nD τ).loc main_arg1) :=
  W1_of_ne m ρ c main_arg1 (by decide)
theorem w1_arg4 (c : Dev nD) : W1 m ρ c (Proc.devRef .tc main_arg4) = m ((c : Thread nD τ).loc main_arg4) :=
  W1_of_ne m ρ c main_arg4 (by decide)
theorem w1_arg5 (c : Dev nD) : W1 m ρ c (Proc.devRef .tc main_arg5) = m ((c : Thread nD τ).loc main_arg5) :=
  W1_of_ne m ρ c main_arg5 (by decide)

/-! ## The host operations between the calls -/

set_option maxHeartbeats 4000000 in
theorem w2_quotient (c : Dev nD) : W2 m ρ c (Proc.devRef .tc main_v28)
    = Middle.quotient (W1 m ρ c (Proc.devRef .tc main_v0_0)) (W1 m ρ c (Proc.devRef .tc main_arg1)) := by
  unfold W2
  generalize W1 m ρ c = WW
  simp only [hostOps1]
  after_results_simp
  unfold Middle.quotient Middle.degree Middle.merged Middle.stamped Middle.tgtCol Middle.srcCol Middle.srcVec Middle.tgtVec
  rfl

set_option maxHeartbeats 4000000 in
theorem w2_hasIn (c : Dev nD) : W2 m ρ c (Proc.devRef .tc main_v23)
    = Middle.hasIn (W1 m ρ c (Proc.devRef .tc main_v0_0)) (W1 m ρ c (Proc.devRef .tc main_arg1)) := by
  unfold W2
  generalize W1 m ρ c = WW
  simp only [hostOps1]
  after_results_simp
  unfold Middle.hasIn Middle.degree Middle.merged Middle.stamped Middle.tgtCol Middle.srcCol Middle.srcVec Middle.tgtVec
  rfl

set_option maxHeartbeats 4000000 in
theorem w2_zero (c : Dev nD) : W2 m ρ c (Proc.devRef .tc main_cst_5) = constant (F := Ideal) S_ .f32 0x00000000#32 := by
  unfold W2
  generalize W1 m ρ c = WW
  simp only [hostOps1]
  after_results_simp

set_option maxHeartbeats 1000000 in
/-- The outlined selection, from any contents: the quotient where the node has an in-edge, the zero word elsewhere. -/
theorem where_stage (WW : Valuation τ sig (Elt Ideal)) :
    StableHlo.after (hostOps1_1 (F := Ideal)) WW (Proc.devRef .tc main_v29)
      = select (broadcastInDim S50000x4 ![0, 1] bcast_S50000x1_S50000x4_0_1 (WW (Proc.devRef .tc main_v23)))
          (WW (Proc.devRef .tc main_v28))
          (broadcastInDim S50000x4 ![] bcast_S_S50000x4 (id (WW (Proc.devRef .tc main_cst_5)))) := by
  simp only [hostOps1_1]
  after_results_simp
  rfl

/-- The array of means the second call reads is the named chain of the first call's table and the edge list. -/
theorem w3_means (c : Dev nD) : W3 m ρ c (Proc.devRef .tc main_v29)
    = Middle.means (W1 m ρ c (Proc.devRef .tc main_v0_0)) (W1 m ρ c (Proc.devRef .tc main_arg1)) := by
  refine (where_stage (W2 m ρ c)).trans ?_
  rw [w2_hasIn, w2_quotient, w2_zero]
  rfl

set_option maxHeartbeats 4000000 in
/-- The other arrays the second call reads are as the first call left them. -/
theorem w3_keep (c : Dev nD) : W3 m ρ c (Proc.devRef .tc main_v0_1) = W1 m ρ c (Proc.devRef .tc main_v0_1)
    ∧ W3 m ρ c (Proc.devRef .tc main_arg4) = W1 m ρ c (Proc.devRef .tc main_arg4)
    ∧ W3 m ρ c (Proc.devRef .tc main_arg5) = W1 m ρ c (Proc.devRef .tc main_arg5) := by
  unfold W3 W2
  generalize W1 m ρ c = WW
  simp only [hostOps1_1, hostOps1]
  refine ⟨?_, ?_, ?_⟩ <;> after_results_simp

/-! ## The second call's array and the final reshape -/

theorem w4_slab (c : Dev nD) : W4 m ρ c (Proc.devRef .tc main_v30)
    = AggArrays.slab (SignalArrays.xsmall (m ((c : Thread nD τ).loc main_arg0)))
        (Middle.means (SignalArrays.spad (m ((c : Thread nD τ).loc main_arg0)) (m ((c : Thread nD τ).loc main_arg2)) (m ((c : Thread nD τ).loc main_arg3)))
          (m ((c : Thread nD τ).loc main_arg1)))
        (m ((c : Thread nD τ).loc main_arg4)) (m ((c : Thread nD τ).loc main_arg5)) := by
  refine ((W4_arr m ρ c 4).trans (AggArrays.arr4 (V3 m ρ) c)).trans ?_
  show AggArrays.slab (W3 m ρ c (Proc.devRef .tc main_v0_1)) (W3 m ρ c (Proc.devRef .tc main_v29))
      (W3 m ρ c (Proc.devRef .tc main_arg4)) (W3 m ρ c (Proc.devRef .tc main_arg5)) = _
  obtain ⟨k1, k4, k5⟩ := w3_keep m ρ c
  rw [k1, k4, k5, w3_means, w1_xsmall, w1_spad, w1_arg1, w1_arg4, w1_arg5]

theorem w5_reshape (c : Dev nD) : W5 m ρ c (Proc.devRef .tc main_v31)
    = shapeCast S50000x64x64 (W4 m ρ c (Proc.devRef .tc main_v30)) shapeCasts_S50000x4096_S50000x64x64 := by
  unfold W5
  generalize W4 m ρ c = WW
  simp only [hostOps2]
  after_results
  rfl

/-- THE KERNEL'S RESULT: the last boundary's contents of the result buffer, entry by entry. -/
theorem result_eq (c : Dev nD) : W5 m ρ c (Proc.devRef .tc main_v31)
    = fun i => Cert.GraphMean.outFactored (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (i 0) (i 1) (i 2) := by
  rw [w5_reshape, w4_slab]
  funext i
  have hi0 : (i 0).val < 50000 := (i 0).isLt
  have hi1 : (i 1).val < 64 := (i 1).isLt
  have hi2 : (i 2).val < 64 := (i 2).isLt
  refine (shapeCast_apply _ shapeCasts_S50000x4096_S50000x64x64 i
    (ix2 (⟨(i 0).val, hi0⟩ : Fin 50000) (⟨(⟨(i 1).val, hi1⟩ : Fin 64).val * 64 + (⟨(i 2).val, hi2⟩ : Fin 64).val, by show (i 1).val * 64 + (i 2).val < 4096; omega⟩ : Fin 4096)) ?_).trans ?_
  · rw [Shape.rowMajor_val_two, Shape.rowMajor_val_three]
    show (i 0).val * 4096 + ((i 1).val * 64 + (i 2).val) = ((i 0).val * 64 + (i 1).val) * 64 + (i 2).val
    omega
  · show AggArrays.slabAt _ _ _ _ (⟨(i 0).val, hi0⟩ : Fin 50000) (AggArrays.featOf _) (AggArrays.chanOf _) = _
    rw [AggArrays.featOf_mk, AggArrays.chanOf_mk]
    exact slab_spec _ _ _ _ _ _ _ _ _

end Cert.KernelIdeal.KernelValue

end
-- ==== Proof.MeanFinite.lean ====
/-
  The means are finite, and the feature comes out of the sum over the cores.

  A node's signal is a hyperbolic tangent, a real number in `[-1, 1]` whatever its argument (at the two infinities it
  is `-1` and `1`).  So a node's total is a finite sum of reals, its in-degree a natural number, and the mean — the
  total over an in-degree that is at least one, or zero — a real number.  With the features `x[n,f]` and the output
  map `W[o,c]` real as well, `Σ_c (mean n c · x[n,f]) · W[o,c] = x[n,f] · Σ_c mean n c · W[o,c]` is the distributive
  law of the reals; over the extended reals it would fail at an infinite `x[n,f]` against terms of both signs.
-/
import proofs.«162915_j39204461478459_2_alg».proof.Proof.Spec

noncomputable section

namespace Cert.GraphMean

open Idealize.ShloMosaic Idealize.ShloMosaic.ValueIdx

variable (X : (⟨2, ![50000, 512]⟩ : Shape).Idx → EReal) (EI : IVec ⟨2, ![2, 1600000]⟩ 32)
  (CW : (⟨2, ![4, 512]⟩ : Shape).Idx → EReal) (CB : (⟨1, ![4]⟩ : Shape).Idx → EReal)
  (WO : (⟨2, ![64, 4]⟩ : Shape).Idx → EReal) (BO : (⟨1, ![64]⟩ : Shape).Idx → EReal)

/-- The word of `1.0` denotes the extended real `1`. -/
theorem oneF_eq : oneF = 1 := by
  show Ideal.ofBits .f32 0x3F800000#32 = 1
  simp [Ideal.ofBits, Ideal.ieee, -EReal.coe_mul]; norm_num

/-- The word of `0.0` denotes the extended real `0`. -/
theorem zeroF_eq : zeroF = 0 := by
  show Ideal.ofBits .f32 0x00000000#32 = 0
  simp [Ideal.ofBits, Ideal.ieee]

/-- A hyperbolic tangent is a real number at every extended real: `-1` and `1` at the infinities. -/
theorem tanh_real (z : EReal) : ∃ r : ℝ, Ideal.tanh z = (r : EReal) := by
  induction z using EReal.rec with
  | bot => exact ⟨-1, rfl⟩
  | coe r => exact ⟨Real.tanh r, rfl⟩
  | top => exact ⟨1, rfl⟩

/-- An extended real that is neither infinity is a real number. -/
theorem finite_real (a : EReal) (h : a ≠ ⊤ ∧ a ≠ ⊥) : ∃ r : ℝ, a = (r : EReal) :=
  ⟨a.toReal, (EReal.coe_toReal h.1 h.2).symm⟩

/-- A finite sum of real numbers, taken in the extended reals, is the real sum. -/
theorem coe_sum {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- A node's total of a real signal is a real number. -/
theorem total_real (S : Fin 50000 → Fin 4 → EReal) (hS : ∀ n c, ∃ r : ℝ, S n c = (r : EReal))
    (n : Fin 50000) (c : Fin 4) : ∃ r : ℝ, total EI S n c = (r : EReal) := by
  choose r hr using hS
  refine ⟨∑ e : Fin 1600000, if (EI (ix2 (1 : Fin 2) e)).toInt = (n.val : ℤ) then r (row EI e) c else 0, ?_⟩
  unfold total
  rw [zeroF_eq, zero_add, ← coe_sum]
  refine Finset.sum_congr rfl fun e _ => ?_
  split_ifs
  · exact hr _ _
  · rfl

/-- A node's in-degree is a real number that is not negative. -/
theorem count_real (n : Fin 50000) : ∃ r : ℝ, 0 ≤ r ∧ count EI n = (r : EReal) := by
  refine ⟨∑ e : Fin 1600000, if (EI (ix2 (1 : Fin 2) e)).toInt = (n.val : ℤ) then (1 : ℝ) else 0, ?_, ?_⟩
  · exact Finset.sum_nonneg fun e _ => by split_ifs <;> norm_num
  · unfold count
    rw [zeroF_eq, zero_add, oneF_eq, ← coe_sum]
    refine Finset.sum_congr rfl fun e _ => ?_
    split_ifs <;> rfl

/-- The mean of a real signal is a real number: a real total over a real in-degree that is at least one, or zero. -/
theorem mean_real (S : Fin 50000 → Fin 4 → EReal) (hS : ∀ n c, ∃ r : ℝ, S n c = (r : EReal))
    (n : Fin 50000) (c : Fin 4) : ∃ r : ℝ, mean EI S n c = (r : EReal) := by
  obtain ⟨t, ht⟩ := total_real EI S hS n c
  obtain ⟨k, _, hk⟩ := count_real EI n
  unfold mean Scalar.select
  split_ifs
  · have h1 : max k 1 ≠ 0 := (lt_of_lt_of_le one_pos (le_max_right k 1)).ne'
    rw [ht, hk, oneF_eq, ← EReal.coe_one, ← EReal.coe_strictMono.monotone.map_max, Ideal.div_coe h1,
      ← EReal.coe_mul]
    exact ⟨_, rfl⟩
  · exact ⟨0, zeroF_eq⟩

/-- The distributive law with the common factor real, the weights real and the other factors real. -/
theorem factor_law (a : EReal) (ha : a ≠ ⊤ ∧ a ≠ ⊥) (m w : Fin 4 → EReal)
    (hm : ∀ c, ∃ r : ℝ, m c = (r : EReal)) (hw : ∀ c, w c ≠ ⊤ ∧ w c ≠ ⊥) :
    a * ∑ c : Fin 4, m c * w c = ∑ c : Fin 4, (m c * a) * w c := by
  obtain ⟨x, rfl⟩ := finite_real a ha
  choose r hr using hm
  choose v hv using fun c => finite_real (w c) (hw c)
  simp only [hr, hv, ← EReal.coe_mul]
  rw [coe_sum, coe_sum, ← EReal.coe_mul, Finset.mul_sum]
  exact congrArg _ (Finset.sum_congr rfl fun c _ => by ring)

/-- With finite features and a finite output map the two arrangements of the result agree. -/
theorem outFactored_eq_out (hX : ∀ i, X i ≠ ⊤ ∧ X i ≠ ⊥) (hW : ∀ i, WO i ≠ ⊤ ∧ WO i ≠ ⊥)
    (n : Fin 50000) (f o : Fin 64) :
    outFactored X EI CW CB WO BO n f o = out X EI CW CB WO BO n f o := by
  unfold outFactored out
  exact congrArg (fun t => max (t + BO (ix1 o)) zeroF)
    (factor_law _ (hX _) (fun c => mean EI (signal X CW CB) n c) (fun c => WO (ix2 o c))
      (fun c => mean_real EI (signal X CW CB) (fun n c => tanh_real _) n c) (fun c => hW _))

end Cert.GraphMean

end
-- ==== Proof.PreFinite.lean ====
/-
  What the precondition says of the two arrays the result's law needs: every feature `x[n,k]` and every entry of the
  output map `W[o,c]` is a real number.

  The precondition is the conjunction, over the five float arguments, of "every entry's absolute value is below
  `+∞`"; on the extended reals `|v| < +∞` says `v` is neither infinity.
-/
import proofs.«162915_j39204461478459_2_alg».proof.Pre_finite_inputs
import Idealize.ShloMosaic.PureOps.Ideal
import Idealize.ShloMosaic.Lib.ValueIdx
import Idealize.ShloMosaic.Lib.ReduceAll

noncomputable section

namespace Cert.PreFinite

open Idealize.ShloMosaic Idealize.ShloMosaic.ValueIdx Cert.Pre_finite_inputs

/-- The word of `+∞` denotes the top of the extended reals. -/
theorem ofBits_inf : Ideal.ofBits .f32 0x7F800000#32 = ⊤ := by
  simp [Ideal.ofBits, Ideal.ieee]

/-- `|a| < +∞`, as the comparison's one-bit word, says `a` is neither infinity. -/
theorem finite_of_abs_lt (a : EReal)
    (h : Ideal.cmp .olt (max a (-a)) (Ideal.ofBits .f32 0x7F800000#32) = 1#1) : a ≠ ⊤ ∧ a ≠ ⊥ := by
  rw [ofBits_inf] at h
  have h' : max a (-a) < ⊤ := by
    by_contra hn
    simp [Ideal.cmp, hn] at h
  induction a using EReal.rec with
  | bot => simp at h'
  | coe r => exact ⟨EReal.coe_ne_top r, EReal.coe_ne_bot r⟩
  | top => simp at h'

/-- The scalar shape has one index. -/
instance : Subsingleton S_.Idx := ⟨fun a b => funext fun d => d.elim0⟩

variable [Cert.Pre_finite_inputs.Facts]

/-- Under the precondition the features and the output map are finite, entry by entry. -/
theorem finite_of_pre (x : FVec Ideal S50000x512 .f32) (ei : IVec S2x1600000 32) (cw : FVec Ideal S4x512 .f32)
    (cb : FVec Ideal S4 .f32) (wo : FVec Ideal S64x4 .f32) (bo : FVec Ideal S64 .f32)
    (h : Cert.Pre_finite_inputs.fn (F := Ideal) x ei cw cb wo bo = fun _ => 1#1) :
    (∀ i, x i ≠ (⊤ : EReal) ∧ x i ≠ (⊥ : EReal)) ∧ (∀ i, wo i ≠ (⊤ : EReal) ∧ wo i ≠ (⊥ : EReal)) := by
  have h0 := congrFun h ValueIdx.ix0
  dsimp only [Cert.Pre_finite_inputs.fn, Cert.Pre_finite_inputs.fn_part1] at h0
  obtain ⟨h1234, _⟩ := IntOp.andi_eq_one.1 h0
  obtain ⟨h123, h4⟩ := IntOp.andi_eq_one.1 h1234
  obtain ⟨h12, _⟩ := IntOp.andi_eq_one.1 h123
  obtain ⟨h1, _⟩ := IntOp.andi_eq_one.1 h12
  exact ⟨fun i => finite_of_abs_lt _ (Host.reduce_andi_all _ _ _ _ _ h1 i),
    fun i => finite_of_abs_lt _ (Host.reduce_andi_all _ _ _ _ _ h4 i)⟩

end Cert.PreFinite

end
-- ==== Proof.lean ====
/-
  A node's mean signal over its in-edges, spread by an outer product with its first features: the kernel against its
  reference, over the extended reals.

  Both programs compute, for 50000 nodes and 1600000 edges,
    out[n,f,o] = max (Σ_c mean[n,c] · x[n,f] · W[o,c] + b[o]) 0,
  with mean[n,c] the average over the edges into n of tanh (x[src] · w_c + b_c), zero at a node without in-edges
  (module Spec).  The reference multiplies the feature in under the sum over the four cores; the kernel computes
  Σ_c mean[n,c] · W[o,c] first, in its second pallas_call, and multiplies the feature in afterwards.  The two agree by
  the distributive law of the reals: the means are always finite (a tanh is, and an in-degree is a natural number), and
  the precondition makes the features and the output map finite (modules MeanFinite, PreFinite).

  The kernel's value: its first pallas_call leaves the signal table padded to eight lanes and the first 64 feature
  columns (SignalBlock, SignalArrays); the host operations between the calls gather the table's rows at the edges'
  sources, overwrite lane 4 by ones, and sum the rows into the edges' targets, so lanes 0–3 are the totals and lane 4
  the in-degree of ONE accumulating scatter where the reference makes two (LibScatter, Middle, MiddleValue); the second
  call writes the outer products as a 50000 × 4096 slab (AggBlock, AggArrays), reshaped at the end (KernelValue).  The
  reference's value is read one operation at a time (RefValue).  The three frame claims are the programs' runs with
  the result dropped; the idealization rewrote nothing, so it preserves the kernel trivially.
-/
import proofs.«162915_j39204461478459_2_alg».proof.Defs
import proofs.«162915_j39204461478459_2_alg».proof.Proof.Gen.Kernel
import proofs.«162915_j39204461478459_2_alg».proof.Proof.Gen.Kernel.Skeleton
import proofs.«162915_j39204461478459_2_alg».proof.Proof.Gen.Kernel.Launch
import proofs.«162915_j39204461478459_2_alg».proof.Proof.Gen.Kernel.Points
import proofs.«162915_j39204461478459_2_alg».proof.Proof.Gen.Kernel.Frame
import proofs.«162915_j39204461478459_2_alg».proof.Proof.Gen.KernelIdeal
import proofs.«162915_j39204461478459_2_alg».proof.Proof.Gen.KernelIdeal.Skeleton
import proofs.«162915_j39204461478459_2_alg».proof.Proof.Gen.KernelIdeal.Launch
import proofs.«162915_j39204461478459_2_alg».proof.Proof.Gen.KernelIdeal.Points
import proofs.«162915_j39204461478459_2_alg».proof.Proof.Gen.KernelIdeal.Frame
import proofs.«162915_j39204461478459_2_alg».proof.Proof.Gen.ReferenceIdeal
import proofs.«162915_j39204461478459_2_alg».proof.Proof.Gen.Pre_finite_inputs
import proofs.«162915_j39204461478459_2_alg».proof.Proof.RefRun
import proofs.«162915_j39204461478459_2_alg».proof.Proof.RefRead
import proofs.«162915_j39204461478459_2_alg».proof.Proof.RefValue
import proofs.«162915_j39204461478459_2_alg».proof.Proof.KernelRun
import proofs.«162915_j39204461478459_2_alg».proof.Proof.KernelValue
import proofs.«162915_j39204461478459_2_alg».proof.Proof.MeanFinite
import proofs.«162915_j39204461478459_2_alg».proof.Proof.PreFinite
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the result array at the specification's `out` of the (agreeing) arguments: the kernel's factored
    form is `out` because the precondition makes the features and the output map finite. -/
theorem algebraic : Cert.algebraic_KernelIdeal_ReferenceIdeal := by
  intro m ρ m' ρ' hpre hagree
  refine ⟨fun c i => Cert.GraphMean.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (i 0) (i 1) (i 2), ?_, ?_⟩
  · refine (θ_run Cert.KernelIdeal.defs _ _).mono (fun r h c => ⟨(h c).1.trans ?_, (h c).2⟩)
      (Cert.KernelIdeal.RunValue.run_value (F := Ideal) m ρ)
    rw [Cert.KernelIdeal.KernelValue.result_eq]
    obtain ⟨hX, hW⟩ := Cert.PreFinite.finite_of_pre _ _ _ _ _ _ (hpre c)
    funext i
    exact Cert.GraphMean.outFactored_eq_out _ _ _ _ _ _ hX hW _ _ _
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v43_eq, (hagree c).1, (hagree c).2.1, (hagree c).2.2.1, (hagree c).2.2.2.1,
      (hagree c).2.2.2.2.1, (hagree c).2.2.2.2.2]
    funext i
    rw [eq_ix3 i]
    exact Cert.ReferenceIdeal.RefValue.ref_value _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
